-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S64x512 : Shape := ⟨2, ![64, 512]⟩
abbrev S8x512 : Shape := ⟨2, ![8, 512]⟩
abbrev S1024x1 : Shape := ⟨2, ![1024, 1]⟩
abbrev S1024x512 : Shape := ⟨2, ![1024, 512]⟩
abbrev S1024x1024 : Shape := ⟨2, ![1024, 1024]⟩
abbrev S1024 : Shape := ⟨1, ![1024]⟩
abbrev S512 : Shape := ⟨1, ![512]⟩
abbrev S1x512 : Shape := ⟨2, ![1, 512]⟩
abbrev S8x8x512 : Shape := ⟨3, ![8, 8, 512]⟩
abbrev S_ : Shape := ⟨0, ![]⟩

abbrev nBuf : Space → Nat
  | .hbm => 22
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S64x512, .f32⟩
  | .hbm, ⟨3, _⟩ => ⟨S8x8x512, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512, .f32⟩
  | .hbm, ⟨21, _⟩ => ⟨S512, .f32⟩
  | .local _ .vmem, ⟨0, _⟩ => ⟨S8192x512, .bf16⟩
  | .local _ .vmem, ⟨1, _⟩ => ⟨S8x512, .f32⟩
  | .local _ .vmem, ⟨2, _⟩ => ⟨S8x512, .f32⟩
  | .local _ .vmem, ⟨3, _⟩ => ⟨S1024x1, .f32⟩
  | .local _ .vmem, ⟨4, _⟩ => ⟨S1024x1, .f32⟩
  | .local _ .vmem, ⟨5, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v2 : Index := Scalar.indexCast v1
  let c0 : Index := 0#32
  ![v2.toNat, 0]
@[reducible] def k0_t1_loop : Scf.Loop 32 :=
  let c0_i32 : BitVec 32 := 0#32
  let c8_i32 : BitVec 32 := 8#32
  let v17 : BitVec 32 := Scalar.addi c0_i32 c8_i32
  let c1_i32 : BitVec 32 := 1#32
  ⟨c0_i32, v17, c1_i32⟩
def k0_mult2 (k0_t1 : Fin k0_t1_loop.trips) : BitVec 32 :=
  let c0_i32_17 : BitVec 32 := 0#32
  let c0_i32 : BitVec 32 := 0#32
  let c1_i32 : BitVec 32 := 1#32
  let arg6 : BitVec 32 := Scf.iv c0_i32 c1_i32 k0_t1
  let c1_i32_16 : BitVec 32 := 1#32
  let v27 : BitVec 32 := Scalar.muli arg6 c1_i32_16
  let v28 : BitVec 32 := Scalar.addi c0_i32_17 v27
  let c1024_i32_18 : BitVec 32 := 1024#32
  let v29 : BitVec 32 := Scalar.muli v28 c1024_i32_18
  v29
def k0_off2 (k0_t1 : Fin k0_t1_loop.trips) : Fin 2 → Nat :=
  let c0_i32_17 : BitVec 32 := 0#32
  let c0_i32 : BitVec 32 := 0#32
  let c1_i32 : BitVec 32 := 1#32
  let arg6 : BitVec 32 := Scf.iv c0_i32 c1_i32 k0_t1
  let c1_i32_16 : BitVec 32 := 1#32
  let v27 : BitVec 32 := Scalar.muli arg6 c1_i32_16
  let v28 : BitVec 32 := Scalar.addi c0_i32_17 v27
  let c1024_i32_18 : BitVec 32 := 1024#32
  let v29 : BitVec 32 := Scalar.muli v28 c1024_i32_18
  let v30 : BitVec 32 := v29
  let v31 : Index := Scalar.indexCast v30
  let c0_19 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bitsLt_bf16_f32 : FTy.bits .bf16 < FTy.bits .f32
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x512 : S1024x1.Broadcasts S1024x512
  reduces_S1024x512_S512 : S1024x512.Reduces [0] S512
  shapeCasts_S512_S1x512 : S512.ShapeCasts S1x512
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  shapeCasts_S64x512_S8x8x512 : S64x512.ShapeCasts S8x8x512
  reducesTo_S8x8x512_S8x512_d1 : S8x8x512.ReducesTo [1] S8x512
  h_S_ : 0 < S_.numel
  bcast_S_S8x512 : S_.BroadcastsInDim S8x512 (![] : Fin 0 → Fin S8x512.rank)
  reducesTo_S8x512_S512_d0 : S8x512.ReducesTo [0] S512
  bcast_S_S512 : S_.BroadcastsInDim S512 (![] : Fin 0 → Fin S512.rank)
  reducesTo_S512_S_d0 : S512.ReducesTo [0] S_
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S8192x512.size a
  k0_t1_ok : k0_t1_loop.OK
  k0_mult2_dvd : ∀ k0_t1 : Fin k0_t1_loop.trips, 1024 ∣ (k0_mult2 k0_t1).toNat
  k0_off2_inb : ∀ k0_t1 : Fin k0_t1_loop.trips, ∀ a, (k0_off2 k0_t1) a + S1024x512.size a ≤ S8192x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .bf16 = 32 ∨ (Rect.block (s := S8192x512) S8192x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S64x512.size a
  hwx0_1 : ∀ i : grid0.Coords, EltTy.bits .f32 = 32 ∨ (Rect.block (s := S64x512) S8x512.size (cc0_transform_1 i) (hinb0_1 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x8192, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x512, .f32⟩
  | .hbm, ⟨18, _⟩ => ⟨S_, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S512, .f32⟩
  | .hbm, ⟨30, _⟩ => ⟨S512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  transposes_S8192x512_S512x8192_1_0 : S8192x512.Transposes [1, 0] S512x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192x512_S512_d0 : S8192x512.ReducesTo [0] S512
  bcast_S_S512 : S_.BroadcastsInDim S512 (![] : Fin 0 → Fin S512.rank)
  reducesTo_S512_S_d0 : S512.ReducesTo [0] S_
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Spec.lean ====
/-
  The two sides of the claim as plain functions of the input matrix, over extended reals.

  The input is an 8192 × 512 matrix `x`. Self-attention without scaling: the scores are `s r j = Σ_k x r k · x j k`,
  a row's weights are `exp (s r j − max_j s r j) / Σ_j exp (s r j − max_j s r j)`, the attended row is
  `Σ_j w r j · x j c`, and the result pools the rows: their sum over `r` divided by 8192 (`refPooled`), followed by an
  L2 normalisation that both programs spell the same way.

  The kernel computes the same rows tile by tile (eight tiles of 1024 query rows) with a running maximum: over eight
  chunks of 1024 key rows it carries, per query row, the maximum so far `m`, the sum `l` of `exp (s − m)` so far and
  the sum `acc` of `exp (s − m) · x j c` so far, rescaling the two sums by `exp (m_old − m_new)` whenever the maximum
  moves (`step`, `online`). A tile's contribution is the sum over its rows of `acc / l` (`tileSum`); it is written eight
  times, summed, divided by eight, and the eight tiles are summed and divided by 8192 (`kerPooled`).
-/
import Idealize.ShloMosaic.PureOps.Ideal

noncomputable section

namespace Cert.Spec

open Idealize.ShloMosaic
open scoped BigOperators

/-- A matrix of extended reals. -/
abbrev Mat (n k : ℕ) := Fin n → Fin k → EReal

/-! ## The reference: one softmax over all 8192 keys -/

/-- The score of query row `r` against key row `j`. -/
def score (x : Mat 8192 512) (r j : Fin 8192) : EReal := ∑ k : Fin 512, x r k * x j k

/-- The largest score of a row (the fold starts at `−∞`). -/
def rowMax (x : Mat 8192 512) (r : Fin 8192) : EReal :=
  (Finset.univ : Finset (Fin 8192)).fold max ⊥ (fun j => score x r j)

/-- The shifted exponential of a score. -/
def ex (x : Mat 8192 512) (r j : Fin 8192) : EReal := Ideal.exp (score x r j - rowMax x r)

/-- The softmax denominator of a row. -/
def den (x : Mat 8192 512) (r : Fin 8192) : EReal := ∑ j : Fin 8192, ex x r j

/-- The attended row: the weights applied to the key rows. -/
def attn (x : Mat 8192 512) (r : Fin 8192) (c : Fin 512) : EReal :=
  ∑ j : Fin 8192, Ideal.div (ex x r j) (den x r) * x j c

/-- The reference's pooled vector: the column sums of the attended rows over the word for `8192.0`. -/
def refPooled (x : Mat 8192 512) (c : Fin 512) : EReal :=
  Ideal.div (∑ r : Fin 8192, attn x r c) (Ideal.ofBits .f32 0x46000000#32)

/-! ## The kernel: a running softmax over eight chunks of 1024 keys, per tile of 1024 queries -/

/-- What the kernel carries per query row of a tile: the maximum so far, the denominator so far, the weighted sum so far. -/
structure St where
  m : Fin 1024 → EReal
  l : Fin 1024 → EReal
  acc : Fin 1024 → Fin 512 → EReal

/-- Before the first chunk: maximum `−∞`, both sums zero. -/
def init : St := ⟨fun _ => ⊥, fun _ => 0, fun _ _ => 0⟩

/-- The scores of a tile of queries against a chunk of keys. -/
def blkScore (q kv : Mat 1024 512) (r j : Fin 1024) : EReal := ∑ k : Fin 512, q r k * kv j k

/-- The maximum after a chunk: the old one against the chunk's largest score. -/
def newMax (q kv : Mat 1024 512) (s : St) (r : Fin 1024) : EReal :=
  max (s.m r) ((Finset.univ : Finset (Fin 1024)).fold max ⊥ (fun j => blkScore q kv r j))

/-- One chunk: move the maximum, rescale both sums by `exp (m_old − m_new)`, add the chunk's terms. -/
def step (q kv : Mat 1024 512) (s : St) : St where
  m := newMax q kv s
  l := fun r => Ideal.exp (s.m r - newMax q kv s r) * s.l r
    + ∑ j : Fin 1024, Ideal.exp (blkScore q kv r j - newMax q kv s r)
  acc := fun r c => Ideal.exp (s.m r - newMax q kv s r) * s.acc r c
    + ∑ j : Fin 1024, Ideal.exp (blkScore q kv r j - newMax q kv s r) * kv j c

/-- Rows `1024·t … 1024·t + 1023` of the input. -/
def blk (x : Mat 8192 512) (t : Fin 8) : Mat 1024 512 :=
  fun r k => x ⟨1024 * t.val + r.val, by have := t.isLt; have := r.isLt; omega⟩ k

/-- The state of tile `t` after the first `k` chunks (nothing changes past the eighth). -/
def online (x : Mat 8192 512) (t : Fin 8) : ℕ → St
  | 0 => init
  | k + 1 => if h : k < 8 then step (blk x t) (blk x ⟨k, h⟩) (online x t k) else online x t k

/-- A tile's contribution to column `c`: the sum over its rows of `acc / l` after all eight chunks. -/
def tileSum (x : Mat 8192 512) (t : Fin 8) (c : Fin 512) : EReal :=
  ∑ r : Fin 1024, Ideal.div ((online x t 8).acc r c) ((online x t 8).l r)

/-- The kernel's pooled vector: each tile's contribution written eight times, summed and divided by the word for `8.0`;
    the tiles summed and divided by the word for `8192.0`. -/
def kerPooled (x : Mat 8192 512) (c : Fin 512) : EReal :=
  Ideal.div (∑ t : Fin 8, Ideal.div (∑ _e : Fin 8, tileSum x t c) (Ideal.ofBits .f32 0x41000000#32))
    (Ideal.ofBits .f32 0x46000000#32)

end Cert.Spec

end
-- ==== Proof.Normalize.lean ====
/-
  The last stretch both programs share, and the passage between arrays and matrices.

  Both programs end the same way on the pooled vector `y` of 512 entries: the Euclidean norm `√(Σ y²)`, floored at the
  word for `1e-12`, divides every entry (`normalize`). An input array of shape [8192, 512] is read as a matrix
  (`toMat`), and a function of a column as an array of shape [512] (`vecOf`).
-/
import proofs.«149267_j80229989089751_2_alg».proof.ReferenceIdeal
import proofs.«149267_j80229989089751_2_alg».proof.Proof.Gen.ReferenceIdeal
import proofs.«149267_j80229989089751_2_alg».proof.Proof.Spec
import Idealize.ShloMosaic.Lib.ValueIdx

noncomputable section

namespace Cert.Normalize

open Cert.ReferenceIdeal Cert.ReferenceIdeal.Gen Idealize.ShloMosaic Idealize.ShloMosaic.ValueIdx

/-- The pooled vector divided by its floored Euclidean norm, operation for operation as both programs spell it. -/
def normalize (y : (⟨S512, .f32⟩ : BufTy).Contents (Elt Ideal)) : (⟨S512, .f32⟩ : BufTy).Contents (Elt Ideal) :=
  Host.divf y (broadcastInDim S512 ![] bcast_S_S512
    (maximumf (Host.sqrt (Host.reduceAdd (mulf y y) (constant (F := Ideal) S_ .f32 0x00000000#32) reducesTo_S512_S_d0 h_S_))
      (constant (F := Ideal) S_ .f32 0x2B8CBCCC#32)))

/-- An [8192, 512] array as a matrix. -/
def toMat (x0 : (⟨S8192x512, .f32⟩ : BufTy).Contents (Elt Ideal)) : Cert.Spec.Mat 8192 512 :=
  fun r k => x0 (ix2 r k)

/-- A function of the column as a [512] array. -/
def vecOf (f : Fin 512 → EReal) : (⟨S512, .f32⟩ : BufTy).Contents (Elt Ideal) := fun i => f (i 0)

end Cert.Normalize

end
-- ==== Proof.RefValue.lean ====
/-
  The reference's value, read index by index.

  The reference computes, from the input matrix x: the scores s r j = Σ_k x r k · x j k, each row's largest score,
  the shifted exponentials exp (s r j − max_j s r j), their row sums, the weights (quotients), the attended rows
  Σ_j w r j · x j c, their column sums over r divided by the word for 8192.0, and then the L2 normalisation.
  Each lemma below reads one of these arrays at an index and identifies the element with the plain function of the
  matrix that the specification names.
-/
import proofs.«149267_j80229989089751_2_alg».proof.Proof.Gen.ReferenceIdeal.Read
import proofs.«149267_j80229989089751_2_alg».proof.Proof.Normalize

noncomputable section

namespace Cert.RefValue

open Cert.ReferenceIdeal Cert.ReferenceIdeal.Gen Cert.ReferenceIdeal.Read Idealize.ShloMosaic Idealize.ShloMosaic.ValueIdx
open Cert.Spec Cert.Normalize
open scoped BigOperators

/-- The word 0xFF800000 is −∞. -/
theorem negInf_eq : Ideal.ofBits .f32 0xFF800000#32 = (⊥ : EReal) := by simp [Ideal.ofBits, Ideal.ieee]

/-- The product array at (r, j) is the score of row r against row j. -/
theorem score_eq (x0 : (⟨S8192x512, .f32⟩ : BufTy).Contents (Elt Ideal)) (r j : Fin 8192) :
    val_main_v1 (F := Ideal) x0 (ix2 r j) = score (toMat x0) r j := by
  rw [val_main_v1_apply]
  unfold score toMat
  refine Finset.sum_congr rfl fun k _ => ?_
  rw [val_main_v0_apply]
  have e1 : lidx_main_v1 (ix2 r j) k = ix2 r k :=
    funext fun a => Fin.ext (by match a with | ⟨0, _⟩ => rfl | ⟨1, _⟩ => rfl)
  have e2 : idx_main_v0 (ridx_main_v1 (ix2 r j) k) = ix2 j k :=
    funext fun a => Fin.ext (by match a with | ⟨0, _⟩ => rfl | ⟨1, _⟩ => rfl)
  rw [e1, e2]

/-- The reduced row index r with the column k put back is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  match c with
  | ⟨0, _⟩ => rfl
  | ⟨1, _⟩ => rfl

/-- The row maximum: the maximum against −∞ of the fold from −∞ of the row's scores is that fold. -/
theorem rowMax_eq (x0 : (⟨S8192x512, .f32⟩ : BufTy).Contents (Elt Ideal)) (r : Fin 8192) :
    val_main_v4 (F := Ideal) x0 (ix1 r) = rowMax (toMat x0) r := by
  have h : S8192x8192.Reduces [1] S8192 := by decide
  rw [val_main_v4_apply, val_main_v3_apply, val_main_cst_0_apply]
  unfold val_main_v2
  refine (congrArg (FloatOps.maximumf (FloatOps.ofBits (F := Ideal) .f32 0xFF800000#32))
    (Host.reduce_eq_fold_single FloatOps.maximumf _ _ _ h _ (ix1 r))).trans ?_
  rw [val_main_cst_apply]
  simp only [Ideal.ofBits_def, Ideal.maximumf_def, negInf_eq]
  rw [max_eq_right bot_le]
  unfold rowMax
  have hf : (val_main_v1 (F := Ideal) x0 ∘ h.lift (ix1 r)) = fun j : Fin 8192 => score (toMat x0) r j :=
    funext fun k => (congrArg (val_main_v1 (F := Ideal) x0) (lift_row h r k)).trans (score_eq x0 r _)
  exact congrArg (fun f => Finset.fold max (⊥ : EReal) f (Finset.univ : Finset (Fin 8192))) hf

/-- The shifted exponential at (r, j). -/
theorem ex_eq (x0 : (⟨S8192x512, .f32⟩ : BufTy).Contents (Elt Ideal)) (r j : Fin 8192) :
    val_main_v8 (F := Ideal) x0 (ix2 r j) = ex (toMat x0) r j := by
  rw [val_main_v8_apply, val_main_v7_apply, val_main_v6_apply, val_main_v5_apply]
  have e : idx_main_v5 (idx_main_v6 (ix2 r j)) = ix1 r :=
    funext fun a => Fin.ext (by match a with | ⟨0, _⟩ => rfl)
  rw [e, rowMax_eq, score_eq]
  simp only [Ideal.hostUnary_exp_def, Ideal.subf_def]
  rfl

/-- The softmax denominator of row r: zero plus the row's shifted exponentials, summed. -/
theorem den_eq (x0 : (⟨S8192x512, .f32⟩ : BufTy).Contents (Elt Ideal)) (r : Fin 8192) :
    val_main_v9 (F := Ideal) x0 (ix1 r) = den (toMat x0) r := by
  rw [val_main_v9_apply, val_main_cst_1_apply]
  simp only [Ideal.ofBits_def, Ideal.ofBits_zero_f32, zero_add]
  unfold den
  refine Finset.sum_congr rfl fun k _ => ?_
  have e : idx_main_v9 (ix1 r) k = ix2 r k :=
    funext fun a => Fin.ext (by match a with | ⟨0, _⟩ => rfl | ⟨1, _⟩ => rfl)
  rw [e, ex_eq]

/-- The weight at (r, j): the shifted exponential over the row's denominator. -/
theorem weight_eq (x0 : (⟨S8192x512, .f32⟩ : BufTy).Contents (Elt Ideal)) (r j : Fin 8192) :
    val_main_v12 (F := Ideal) x0 (ix2 r j) = Ideal.div (ex (toMat x0) r j) (den (toMat x0) r) := by
  rw [val_main_v12_apply, val_main_v11_apply, val_main_v10_apply]
  have e : idx_main_v10 (idx_main_v11 (ix2 r j)) = ix1 r :=
    funext fun a => Fin.ext (by match a with | ⟨0, _⟩ => rfl)
  rw [e, den_eq, ex_eq]
  simp only [Ideal.hostDivf_def]

/-- The attended row r at column c. -/
theorem attn_eq (x0 : (⟨S8192x512, .f32⟩ : BufTy).Contents (Elt Ideal)) (r : Fin 8192) (c : Fin 512) :
    val_main_v13 (F := Ideal) x0 (ix2 r c) = attn (toMat x0) r c := by
  rw [val_main_v13_apply]
  unfold attn
  refine Finset.sum_congr rfl fun k _ => ?_
  have e1 : lidx_main_v13 (ix2 r c) k = ix2 r k :=
    funext fun a => Fin.ext (by match a with | ⟨0, _⟩ => rfl | ⟨1, _⟩ => rfl)
  have e2 : ridx_main_v13 (ix2 r c) k = ix2 k c :=
    funext fun a => Fin.ext (by match a with | ⟨0, _⟩ => rfl | ⟨1, _⟩ => rfl)
  rw [e1, e2, weight_eq]
  rfl

/-- The pooled vector at column c: zero plus the column sum of the attended rows, over the word for 8192.0. -/
theorem pooled_apply (x0 : (⟨S8192x512, .f32⟩ : BufTy).Contents (Elt Ideal)) (c : Fin 512) :
    val_main_v16 (F := Ideal) x0 (ix1 c) = refPooled (toMat x0) c := by
  rw [val_main_v16_apply, val_main_v15_apply, val_main_cst_3_apply, val_main_v14_apply, val_main_cst_2_apply]
  simp only [Ideal.ofBits_def, Ideal.ofBits_zero_f32, zero_add, Ideal.hostDivf_def]
  unfold refPooled
  refine congrArg (fun s => Ideal.div s (Ideal.ofBits .f32 0x46000000#32)) ?_
  refine Finset.sum_congr rfl fun k _ => ?_
  have e : idx_main_v14 (ix1 c) k = ix2 k c :=
    funext fun a => Fin.ext (by match a with | ⟨0, _⟩ => rfl | ⟨1, _⟩ => rfl)
  rw [e, attn_eq]

/-- The reference's pooled array is the specification's pooled vector. -/
theorem pooled_eq (x0 : (⟨S8192x512, .f32⟩ : BufTy).Contents (Elt Ideal)) :
    Cert.ReferenceIdeal.Read.val_main_v16 (F := Ideal) x0
      = Cert.Normalize.vecOf (Cert.Spec.refPooled (Cert.Normalize.toMat x0)) := by
  funext i
  obtain ⟨c, rfl⟩ : ∃ c : Fin 512, i = ix1 c := ⟨i 0, eq_ix1 i⟩
  exact pooled_apply x0 c

/-- The reference's result is the normalisation of the specification's pooled vector. -/
theorem value_eq (x0 : (⟨S8192x512, .f32⟩ : BufTy).Contents (Elt Ideal)) :
    Cert.ReferenceIdeal.Read.val_main_v20 (F := Ideal) x0
      = Cert.Normalize.normalize (Cert.Normalize.vecOf (Cert.Spec.refPooled (Cert.Normalize.toMat x0))) := by
  rw [← pooled_eq]
  rfl

end Cert.RefValue

end
-- ==== Proof.KernelPieces.lean ====
/-
  What one grid point of the kernel leaves in its output block, as a pure function of the input array.

  At a grid point the body zeroes its three scratch buffers (running maximum `−∞`, denominator 0, weighted sum 0), runs
  eight trips of a loop — each trip loads a chunk of 1024 key rows, loads the three buffers back and stores their
  updates — and finally stores the column sums of `weighted sum / denominator`, broadcast to eight rows. Every store
  covers its whole buffer, so what a buffer holds before a trip is simply the last payload stored into it: the state
  after `k` trips is the `k`-fold iterate of the trip's three payloads (`run`), and the output block is the final
  payload of that state (`out_eq`). Nothing here depends on the float instance.
-/
import proofs.«149267_j80229989089751_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The loop makes eight trips. -/
theorem trips_eq : k0_t1_loop.trips = 8 := by decide

/-- The zero offsets, however spelt. -/
theorem hz2 : (![0, 0] : Fin 2 → ℕ) = fun _ => 0 := by
  funext a; match a with | ⟨0, _⟩ => rfl | ⟨1, _⟩ => rfl

/-- A load of the whole buffer right after a store of the whole buffer reads the stored payload, whatever was
    stored before. -/
theorem readAt_writes_head {sig : RefSig} {κ : Kind} {sp : Space} {S : Shape} {e : EltTy} {Val : EltTy → Type}
    [∀ e, Nonempty (Val e)] (v : View sig κ sp S e) (f : v.ty.Contents Val) {off : Fin S.rank → ℕ}
    (h : off = fun _ => 0) (inb : ∀ a, off a + S.size a ≤ S.size a) (w : S.Idx → Val e) (L : List (View.Piece Val S e)) :
    v.readAt Val (Rect.unit off S.size inb).toLoadRect (v.writes Val f ((⟨Rect.unit off S.size inb, w⟩ : View.Piece Val S e) :: L)) = w := by
  rw [View.readAt_eq_ld, View.read_writes_eq_canon v f _ (fun y => ⟨_, List.mem_cons_self, View.mem_set_unit_zero h inb y⟩),
    View.canon_cons_unit_zero h inb, View.ld_unit_zero h inb]

/-- What the body carries between trips: the running maximum, the denominator, the weighted sum. -/
structure VSt (F : FTy → Type) [FloatOps F] where
  m : Vec F S1024x1 .f32
  l : Vec F S1024x1 .f32
  acc : Vec F S1024x512 .f32

/-- One trip on the carried state: the three payloads the trip stores. -/
def vstep (q : FVec F S1024x512 .bf16) (kv : Vec F S1024x512 .bf16) (s : VSt F) : VSt F :=
  ⟨k0_pay13 q kv s.m, k0_pay11 q kv s.m s.l, k0_pay12 q kv s.m s.acc⟩

/-- The state after the first `k` trips, from the state `s0` at loop entry. -/
def run (q : FVec F S1024x512 .bf16) (kv : Fin k0_t1_loop.trips → Vec F S1024x512 .bf16) (s0 : VSt F) : ℕ → VSt F
  | 0 => s0
  | k + 1 => if h : k < k0_t1_loop.trips then vstep q (kv ⟨k, h⟩) (run q kv s0 k) else run q kv s0 k

theorem run_succ (q : FVec F S1024x512 .bf16) (kv : Fin k0_t1_loop.trips → Vec F S1024x512 .bf16) (s0 : VSt F)
    (k : Fin k0_t1_loop.trips) : run q kv s0 (k.val + 1) = vstep q (kv k) (run q kv s0 k.val) := by
  rw [run]; exact dif_pos k.isLt

/-- The three pieces a trip stores, as the trip's payloads of what it loads. -/
theorem tripL_eq (𝒱 : Variants) (bd : Option 𝒱.V) (c : Dev nD) (i : grid0.Coords) (arg1 : Memref sig .tc .vmem S8192x512 .bf16) (harg1 : arg1.IsWhole) (arg2 : Memref sig .tc .vmem S8x512 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x512 .f32) (harg5 : arg5.IsWhole) (v3 : Vec F S1024x512 .bf16) (X_arg1 : BufTy.Contents (Elt F) arg1.view.ty) (k : Fin k0_t1_loop.trips) (f_arg3 : BufTy.Contents (Elt F) arg3.view.ty) (f_arg4 : BufTy.Contents (Elt F) arg4.view.ty) (f_arg5 : BufTy.Contents (Elt F) arg5.view.ty) :
    tripL_k0_t1 (F := F) 𝒱 c bd i arg1 harg1 arg2 harg2 arg3 harg3 arg4 harg4 arg5 harg5 v3 X_arg1 k f_arg3 f_arg4 f_arg5
      = ([⟨Rect.unit ![0, 0] S1024x1.size inb_S1024x1_S1024x1_0_0,
            k0_pay13 (k0_pay1 v3) (arg1.view.readAt (Elt F) (Rect.unit (s := S8192x512) (k0_off2 k) S1024x512.size (k0_off2_inb k)).toLoadRect X_arg1)
              (arg3.view.readAt (Elt F) (Rect.unit ![0, 0] S1024x1.size inb_S1024x1_S1024x1_0_0).toLoadRect f_arg3)⟩],
         [⟨Rect.unit ![0, 0] S1024x1.size inb_S1024x1_S1024x1_0_0,
            k0_pay11 (k0_pay1 v3) (arg1.view.readAt (Elt F) (Rect.unit (s := S8192x512) (k0_off2 k) S1024x512.size (k0_off2_inb k)).toLoadRect X_arg1)
              (arg3.view.readAt (Elt F) (Rect.unit ![0, 0] S1024x1.size inb_S1024x1_S1024x1_0_0).toLoadRect f_arg3)
              (arg4.view.readAt (Elt F) (Rect.unit ![0, 0] S1024x1.size inb_S1024x1_S1024x1_0_0).toLoadRect f_arg4)⟩],
         [⟨Rect.unit ![0, 0] S1024x512.size inb_S1024x512_S1024x512_0_0,
            k0_pay12 (k0_pay1 v3) (arg1.view.readAt (Elt F) (Rect.unit (s := S8192x512) (k0_off2 k) S1024x512.size (k0_off2_inb k)).toLoadRect X_arg1)
              (arg3.view.readAt (Elt F) (Rect.unit ![0, 0] S1024x1.size inb_S1024x1_S1024x1_0_0).toLoadRect f_arg3)
              (arg5.view.readAt (Elt F) (Rect.unit ![0, 0] S1024x512.size inb_S1024x512_S1024x512_0_0).toLoadRect f_arg5)⟩]) := by
  unfold tripL_k0_t1 trip_k0_t1
  dsimp only
  sl_unfold_words
  rfl

/-! ## The buffers' contents before each trip -/

section Contents

variable (𝒱 : Variants) (bd : Option 𝒱.V) (c : Dev nD) (i : grid0.Coords) (arg1 : Memref sig .tc .vmem S8192x512 .bf16) (harg1 : arg1.IsWhole) (arg2 : Memref sig .tc .vmem S8x512 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x512 .f32) (harg5 : arg5.IsWhole)
  (v3 : Vec F S1024x512 .bf16) (X_arg1 : BufTy.Contents (Elt F) arg1.view.ty)
  (G3 : BufTy.Contents (Elt F) arg3.view.ty) (G4 : BufTy.Contents (Elt F) arg4.view.ty) (G5 : BufTy.Contents (Elt F) arg5.view.ty)

/-- The chunk of key rows trip `k` loads. -/
def kvOf (k : Fin k0_t1_loop.trips) : Vec F S1024x512 .bf16 :=
  arg1.view.readAt (Elt F) (Rect.unit (s := S8192x512) (k0_off2 k) S1024x512.size (k0_off2_inb k)).toLoadRect X_arg1

/-- The carried state at loop entry: what the three buffers hold there. -/
def entry : VSt F :=
  ⟨arg3.view.readAt (Elt F) (Rect.unit ![0, 0] S1024x1.size inb_S1024x1_S1024x1_0_0).toLoadRect G3,
   arg4.view.readAt (Elt F) (Rect.unit ![0, 0] S1024x1.size inb_S1024x1_S1024x1_0_0).toLoadRect G4,
   arg5.view.readAt (Elt F) (Rect.unit ![0, 0] S1024x512.size inb_S1024x512_S1024x512_0_0).toLoadRect G5⟩

/-- Before trip `k` the three buffers read as the state after `k` trips: each trip's store covers its buffer, so a
    buffer holds the last trip's payload, which was computed from what the buffers held before that trip. -/
theorem contents (k : ℕ) (hk : k ≤ k0_t1_loop.trips) :
    arg3.view.readAt (Elt F) (Rect.unit ![0, 0] S1024x1.size inb_S1024x1_S1024x1_0_0).toLoadRect
        (arg3.view.writes (Elt F) G3 (pb_k0_t1 (F := F) 𝒱 c bd i arg1 harg1 arg2 harg2 arg3 harg3 arg4 harg4 arg5 harg5 v3 X_arg1 G3 G4 G5 k).1)
      = (run (k0_pay1 v3) (kvOf arg1 X_arg1) (entry arg3 arg4 arg5 G3 G4 G5) k).m
    ∧ arg4.view.readAt (Elt F) (Rect.unit ![0, 0] S1024x1.size inb_S1024x1_S1024x1_0_0).toLoadRect
        (arg4.view.writes (Elt F) G4 (pb_k0_t1 (F := F) 𝒱 c bd i arg1 harg1 arg2 harg2 arg3 harg3 arg4 harg4 arg5 harg5 v3 X_arg1 G3 G4 G5 k).2.1)
      = (run (k0_pay1 v3) (kvOf arg1 X_arg1) (entry arg3 arg4 arg5 G3 G4 G5) k).l
    ∧ arg5.view.readAt (Elt F) (Rect.unit ![0, 0] S1024x512.size inb_S1024x512_S1024x512_0_0).toLoadRect
        (arg5.view.writes (Elt F) G5 (pb_k0_t1 (F := F) 𝒱 c bd i arg1 harg1 arg2 harg2 arg3 harg3 arg4 harg4 arg5 harg5 v3 X_arg1 G3 G4 G5 k).2.2)
      = (run (k0_pay1 v3) (kvOf arg1 X_arg1) (entry arg3 arg4 arg5 G3 G4 G5) k).acc := by
  induction k with
  | zero => exact ⟨rfl, rfl, rfl⟩
  | succ k ih =>
    have hk' : k < k0_t1_loop.trips := hk
    obtain ⟨h3, h4, h5⟩ := ih (Nat.le_of_lt hk')
    rw [show pb_k0_t1 (F := F) 𝒱 c bd i arg1 harg1 arg2 harg2 arg3 harg3 arg4 harg4 arg5 harg5 v3 X_arg1 G3 G4 G5 (k + 1) = _ from
      pb_k0_t1_succ (F := F) 𝒱 c bd i arg1 harg1 arg2 harg2 arg3 harg3 arg4 harg4 arg5 harg5 v3 X_arg1 G3 G4 G5 ⟨k, hk'⟩]
    rw [tripL_eq]
    rw [show run (k0_pay1 v3) (kvOf arg1 X_arg1) (entry arg3 arg4 arg5 G3 G4 G5) (k + 1) = _ from
      run_succ (k0_pay1 v3) (kvOf arg1 X_arg1) (entry arg3 arg4 arg5 G3 G4 G5) ⟨k, hk'⟩]
    dsimp only
    simp only [List.cons_append, List.nil_append]
    refine ⟨?_, ?_, ?_⟩
    · rw [readAt_writes_head _ _ hz2, h3]; rfl
    · rw [readAt_writes_head _ _ hz2, h3, h4]; rfl
    · rw [readAt_writes_head _ _ hz2, h3, h5]; rfl

end Contents

/-! ## The output block -/

/-- The tile of query rows a grid point loads. -/
def qOf (i : grid0.Coords) (x0 : Vec F S8192x512 .bf16) : FVec F S1024x512 .bf16 :=
  k0_pay1 (View.ld x0 (Rect.unit (s := S8192x512) (k0_off1 i) S1024x512.size (k0_off1_inb i)))

/-- The chunk of key rows trip `k` loads, of the whole input block. -/
def kvAt (x0 : Vec F S8192x512 .bf16) (k : Fin k0_t1_loop.trips) : Vec F S1024x512 .bf16 :=
  View.ld x0 (Rect.unit (s := S8192x512) (k0_off2 k) S1024x512.size (k0_off2_inb k))

/-- The carried state after the zeroing stores. -/
def zeroed : VSt F := ⟨k0_pay2, k0_pay3, k0_pay4⟩

/-- The carried state after all the trips, at grid point `i` on the input block `x0`. -/
def final (i : grid0.Coords) (x0 : Vec F S8192x512 .bf16) : VSt F :=
  run (qOf i x0) (kvAt x0) zeroed k0_t1_loop.trips

/-- What the body leaves in its output block: the last payload, of the weighted sum and the denominator after all the
    trips. -/
theorem out_eq (c : Dev nD) (i : grid0.Coords) (arg1 : Memref sig .tc .vmem S8192x512 .bf16) (harg1 : arg1.IsWhole) (arg2 : Memref sig .tc .vmem S8x512 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x512 .f32) (harg5 : arg5.IsWhole) (x0 : Vec F S8192x512 .bf16) :
    out0_A_1 (F := F) c i arg1 harg1 arg2 harg2 arg3 harg3 arg4 harg4 arg5 harg5 x0 = k0_pay5 (final i x0).acc (final i x0).l := by
  unfold out0_A_1
  rw [View.read_writes_eq_canon _ _ _ (cover0_A_1 c i arg1 harg1 arg2 harg2 arg3 harg3 arg4 harg4 arg5 harg5 x0)]
  unfold kernelRun0_A
  dsimp only
  sl_unfold_words
  rw [View.canon_unit_zero hz2, View.writes_append, View.writes_append]
  have hq : k0_pay1 (arg1.view.readAt (Elt F) (Rect.unit (s := S8192x512) (k0_off1 i) S1024x512.size (k0_off1_inb i)).toLoadRect (harg1.unread x0))
      = qOf i x0 := by
    unfold qOf; rw [View.readAt_eq_ld, harg1.read_unread]
  have hkv : kvOf (F := F) arg1 (harg1.unread x0) = kvAt x0 := by
    funext k; unfold kvOf kvAt; rw [View.readAt_eq_ld, harg1.read_unread]
  have he : entry (F := F) arg3 arg4 arg5
      (arg3.view.writes (Elt F) arg3.view.junk [(⟨Rect.unit ![0, 0] S1024x1.size inb_S1024x1_S1024x1_0_0, k0_pay2⟩ : View.Piece (Elt F) S1024x1 .f32)])
      (arg4.view.writes (Elt F) arg4.view.junk [(⟨Rect.unit ![0, 0] S1024x1.size inb_S1024x1_S1024x1_0_0, k0_pay3⟩ : View.Piece (Elt F) S1024x1 .f32)])
      (arg5.view.writes (Elt F) arg5.view.junk [(⟨Rect.unit ![0, 0] S1024x512.size inb_S1024x512_S1024x512_0_0, k0_pay4⟩ : View.Piece (Elt F) S1024x512 .f32)])
      = zeroed := by
    unfold entry zeroed
    rw [readAt_writes_head _ _ hz2, readAt_writes_head _ _ hz2, readAt_writes_head _ _ hz2]
  have H := contents (F := F) Variants.none none c i arg1 harg1 arg2 harg2 arg3 harg3 arg4 harg4 arg5 harg5
    (arg1.view.readAt (Elt F) (Rect.unit (s := S8192x512) (k0_off1 i) S1024x512.size (k0_off1_inb i)).toLoadRect (harg1.unread x0))
    (harg1.unread x0)
    (arg3.view.writes (Elt F) arg3.view.junk [(⟨Rect.unit ![0, 0] S1024x1.size inb_S1024x1_S1024x1_0_0, k0_pay2⟩ : View.Piece (Elt F) S1024x1 .f32)])
    (arg4.view.writes (Elt F) arg4.view.junk [(⟨Rect.unit ![0, 0] S1024x1.size inb_S1024x1_S1024x1_0_0, k0_pay3⟩ : View.Piece (Elt F) S1024x1 .f32)])
    (arg5.view.writes (Elt F) arg5.view.junk [(⟨Rect.unit ![0, 0] S1024x512.size inb_S1024x512_S1024x512_0_0, k0_pay4⟩ : View.Piece (Elt F) S1024x512 .f32)])
    k0_t1_loop.trips le_rfl
  rw [hq, hkv, he] at H
  exact congr (congrArg k0_pay5 H.2.2) H.2.1

end Cert.KernelIdeal.Pieces

end
-- ==== Proof.KernelBlocks.lean ====
/-
  The array the region leaves, as one function of the array it reads.

  The region has eight grid points. Its input window is the whole [8192, 512] array at every point; its output window
  at point `t` is rows `8t … 8t + 7` of the [64, 512] result. What point `t` writes back is therefore rows
  `8t … 8t + 7` of one function of the input array (`raw`): row `8t + e`, column `c` holds tile `t`'s column sum at
  `c`, whatever `e`. The eight blocks tile the result, so after the region the result array is `raw` of the input array.
-/
import proofs.«149267_j80229989089751_2_alg».proof.Proof.KernelPieces
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Pieces
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- What grid point `t` leaves in its output block, of the whole input array `X`. -/
def blockAt (X : Vec F S8192x512 .bf16) (t : Fin cfg0.N) : Vec F S8x512 .f32 :=
  k0_pay5 (final (grid0.coords t) X).acc (final (grid0.coords t) X).l

/-- The [64, 512] result of the region: row `8t + e` is row `e` of point `t`'s block. -/
def raw (X : Vec F S8192x512 .bf16) : S64x512.Idx → Elt F .f32 := fun i =>
  blockAt X ⟨(i 0).val / 8, by have h : (i 0).val < 64 := (i 0).isLt; show _ < grid0.N; rw [N_0]; omega⟩
    (ix2 (⟨(i 0).val % 8, Nat.mod_lt _ (by decide)⟩ : Fin 8) (⟨(i 1).val, (i 1).isLt⟩ : Fin 512))

/-- `raw` at an index of point `t`'s rows. -/
theorem raw_at (X : Vec F S8192x512 .bf16) (t : Fin cfg0.N) (j : S8x512.Idx) (i : S64x512.Idx)
    (h0 : (i 0).val = t.val * 8 + (j 0).val) (h1 : (i 1).val = (j 1).val) : raw X i = blockAt X t j := by
  have hj0 : (j 0).val < 8 := (j 0).isLt
  unfold raw
  refine congr (congrArg (blockAt X) (Fin.ext ?_)) (funext fun a => Fin.ext ?_)
  · show (i 0).val / 8 = t.val
    omega
  · match a with
    | ⟨0, _⟩ => show (i 0).val % 8 = (j 0).val; omega
    | ⟨1, _⟩ => exact h1

/-- The printed index maps over the grid: the input window stays at block (0, 0); the output window's block is (t, 0). -/
theorem idx_facts : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- The input window's block at every point is the whole array the region reads. -/
theorem iblk_eq (c : Dev nD) (t : Fin cfg0.N) :
    (iblk m c 0 t : Vec F S8192x512 .bf16) = (V m c main_v0 : S8192x512.Idx → Elt F .bf16) := by
  obtain ⟨e0, e1, -, -⟩ := idx_facts t
  funext x
  unfold iblk
  rw [View.read_apply]
  show V m c main_v0 _ = V m c main_v0 x
  congr 1
  funext a
  apply Fin.ext
  match a with
  | ⟨0, _⟩ => show win0_0.index t (0 : Fin 2) * 8192 + 1 * (x 0).val = (x 0).val; rw [e0]; omega
  | ⟨1, _⟩ => show win0_0.index t (1 : Fin 2) * 512 + 1 * (x 1).val = (x 1).val; rw [e1]; omega

/-- What point `t` writes back is block `t` of `raw` of the array the region reads. -/
theorem flushed_eq (c : Dev nD) (t : Fin cfg0.N) :
    (dats m 0 c).flushed 1 t = ((cfg0.win 1).blk t).view.read (Elt F) (raw (V m c main_v0)) := by
  obtain ⟨-, -, e2, e3⟩ := idx_facts t
  show (cfg0.win 1).cut (grid0.coords t) ((dats m 0 c).after 1 t) = _
  rw [after0_1]
  unfold outsAt0
  rw [Pieces.out_eq, iblk_eq]
  funext j
  show blockAt (V m c main_v0) t j = raw (V m c main_v0) (((cfg0.win 1).blk t).view.emb j)
  refine (raw_at (V m c main_v0) t j _ ?_ ?_).symm
  · show win0_1.index t (0 : Fin 2) * 8 + 1 * (j 0).val = t.val * 8 + (j 0).val
    rw [e2]; omega
  · show win0_1.index t (1 : Fin 2) * 512 + 1 * (j 1).val = (j 1).val
    rw [e3]; omega

/-- An index of the result is in point `t`'s block iff each coordinate is in the block's range on its axis. -/
theorem mem_blk (t : Fin cfg0.N) (i : S64x512.Idx) :
    i ∈ ((cfg0.win 1).blk t).view.set ↔ ∀ a : Fin 2, win0_1.index t a * S8x512.size a ≤ (i a).val ∧ (i a).val < win0_1.index t a * S8x512.size a + S8x512.size a := by
  show i ∈ ((View.whole main_v1).slice (win0_1.rect t)).set ↔ _
  rw [View.set_slice_whole, Rect.mem_set_unit]
  exact Iff.rfl

/-- Every index of the result is in the block of the point its row belongs to. -/
theorem cover (i : S64x512.Idx) : ∃ t : Fin cfg0.N, (cfg0.win 1).flush t = true ∧ i ∈ ((cfg0.win 1).blk t).view.set := by
  have hi0 : (i 0).val < 64 := (i 0).isLt
  have hi1 : (i 1).val < 512 := (i 1).isLt
  refine ⟨⟨(i 0).val / 8, by show _ < grid0.N; rw [N_0]; omega⟩, flush0_1 _, ?_⟩
  rw [mem_blk]
  obtain ⟨-, -, e2, e3⟩ := idx_facts ⟨(i 0).val / 8, by show _ < grid0.N; rw [N_0]; omega⟩
  intro a
  match a with
  | ⟨0, _⟩ =>
    show win0_1.index _ (0 : Fin 2) * 8 ≤ (i 0).val ∧ (i 0).val < win0_1.index _ (0 : Fin 2) * 8 + 8
    rw [e2]; show (i 0).val / 8 * 8 ≤ (i 0).val ∧ (i 0).val < (i 0).val / 8 * 8 + 8; omega
  | ⟨1, _⟩ =>
    show win0_1.index _ (1 : Fin 2) * 512 ≤ (i 1).val ∧ (i 1).val < win0_1.index _ (1 : Fin 2) * 512 + 512
    rw [e3]; omega

/-- After the region the result array is `raw` of the array the region read. -/
theorem final_raw (c : Dev nD) : (dats m 0 c).arrAt 1 cfg0.N = raw (V m c main_v0) :=
  (dats m 0 c).arrAt_eq_of_cover 1 (raw (V m c main_v0)) (fun t _ => flushed_eq m c t) cover

end Cert.KernelIdeal.Blocks

end
-- ==== Proof.KernelTail.lean ====
/-
  The host operations after the region, read at the ideal instance.

  After the region the program reshapes the [64, 512] result to [8, 8, 512] (tile, copy, column), sums the copies and
  divides by the word for `8.0`, sums the tiles and divides by the word for `8192.0` (`pooledOf`), and ends with the
  L2 normalisation both programs share. At a column `c` the pooled vector is
  `(Σ_t (Σ_e R (8t + e, c)) / 8) / 8192` of the region's result `R`.
-/
import proofs.«149267_j80229989089751_2_alg».proof.Proof.KernelBlocks
import proofs.«149267_j80229989089751_2_alg».proof.Proof.Normalize
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Tail

open Cert.KernelIdeal Cert.KernelIdeal.Gen
open Idealize.ShloMosaic Idealize.ShloMosaic.TcCoe Idealize.ShloMosaic.ValueIdx Idealize.SL.Sem
open Idealize.ShloMosaic.StableHlo
open scoped BigOperators

/-- The pooled vector of the region's result: copies summed over the word for 8, tiles summed over the word for 8192. -/
def pooledOf (R : (⟨S64x512, .f32⟩ : BufTy).Contents (Elt Ideal)) : (⟨S512, .f32⟩ : BufTy).Contents (Elt Ideal) :=
  Host.divf (F := Ideal)
    (Host.reduceAdd (F := Ideal)
      (Host.divf (F := Ideal)
        (Host.reduceAdd (F := Ideal) (shapeCast S8x8x512 R shapeCasts_S64x512_S8x8x512)
          (constant (F := Ideal) S_ .f32 0x00000000#32) reducesTo_S8x8x512_S8x512_d1 h_S_)
        (broadcastInDim S8x512 ![] bcast_S_S8x512 (constant (F := Ideal) S_ .f32 0x41000000#32)))
      (constant (F := Ideal) S_ .f32 0x00000000#32) reducesTo_S8x512_S512_d0 h_S_)
    (broadcastInDim S512 ![] bcast_S_S512 (constant (F := Ideal) S_ .f32 0x46000000#32))

variable (m : (ℓ : Loc nD τ sig) → Buf (Elt Ideal) ℓ)

/-- The program's result is the normalisation of the pooled vector of the region's result array. -/
theorem tail_eq (c : Dev nD) :
    Pipeline.afterTail₀ cfgs (dats m) 0 (V0 m) [hostOps1, hostOps1_1, hostOps1_2] c main_v12
      = Cert.Normalize.normalize (pooledOf ((dats m 0 c).arrAt 1 cfg0.N)) := by
  unfold Pipeline.afterTail₀
  simp only [hostOps1, hostOps1_1, hostOps1_2, List.flatten_cons, List.flatten_nil, List.append_nil, List.cons_append, List.nil_append]
  after_results
  rw [show Pipeline.withArrays (cfgs 0).spec c (V0 m c) (fun w => (dats m 0 c).arrAt w (cfgs 0).N) (Proc.tc.devRef main_v1)
      = (dats m 0 c).arrAt 1 cfg0.N from Pipeline.withArrays_arr spec0 launch0.win.arr_inj c _ _ 1]
  rfl

/-- The array the region reads is the input, its change of float format the identity. -/
theorem V_main_v0 (c : Dev nD) :
    (V m c main_v0 : S8192x512.Idx → Elt Ideal .bf16) = truncf (F := Ideal) .bf16 (m (c, Proc.tc.devRef main_arg0)) bitsLt_bf16_f32 := by
  show StableHlo.after hostOps0 (fun b => m (c, b)) (Proc.devRef .tc main_v0) = _
  after_results

/-! ## The pooled vector at a column -/

/-- The words for `8.0` … are kept as words; the zero word is `0`. -/
theorem zero_word : Ideal.ofBits .f32 0x00000000#32 = (0 : EReal) := Ideal.ofBits_zero_f32

/-- The reshape to [8, 8, 512] at (t, e, c) reads row `8t + e`, column `c`. -/
theorem reshape_apply (R : (⟨S64x512, .f32⟩ : BufTy).Contents (Elt Ideal)) (t e : Fin 8) (c : Fin 512) :
    shapeCast S8x8x512 R shapeCasts_S64x512_S8x8x512 (ix3 t e c)
      = R (ix2 (⟨8 * t.val + e.val, by have := t.isLt; have := e.isLt; omega⟩ : Fin 64) c) :=
  shapeCast_apply R shapeCasts_S64x512_S8x8x512 _ _ (by
    rw [Shape.rowMajor_val_three, Shape.rowMajor_val_two]
    show (8 * t.val + e.val) * 512 + c.val = (t.val * 8 + e.val) * 512 + c.val
    omega)

/-- The sum over the copies: at (t, c), the initial zero plus the eight copies. -/
theorem sumCopies_apply (y : (⟨S8x8x512, .f32⟩ : BufTy).Contents (Elt Ideal)) (t : Fin 8) (c : Fin 512) :
    Host.reduceAdd (F := Ideal) y (constant (F := Ideal) S_ .f32 0x00000000#32) reducesTo_S8x8x512_S8x512_d1 h_S_ (ix2 t c)
      = ∑ e : Fin 8, y (ix3 t e c) := by
  have h : S8x8x512.Reduces [1] S8x512 := by decide
  simp only [Host.reduceAdd, Ideal.hostReduceAdd_def]
  refine (Ideal.hostReduceAdd_single _ h y _ (ix2 t c)).trans ?_
  rw [show (constant (F := Ideal) S_ .f32 0x00000000#32) (Shape.Idx.first h_S_) = (0 : EReal) from zero_word, zero_add]
  exact Finset.sum_congr rfl fun k _ => congrArg y (funext fun a => Fin.ext (by
    match a with
    | ⟨0, _⟩ => rfl
    | ⟨1, _⟩ => rfl
    | ⟨2, _⟩ => rfl))

/-- The sum over the tiles: at c, the initial zero plus the eight tiles. -/
theorem sumTiles_apply (y : (⟨S8x512, .f32⟩ : BufTy).Contents (Elt Ideal)) (c : Fin 512) :
    Host.reduceAdd (F := Ideal) y (constant (F := Ideal) S_ .f32 0x00000000#32) reducesTo_S8x512_S512_d0 h_S_ (ix1 c)
      = ∑ t : Fin 8, y (ix2 t c) := by
  have h : S8x512.Reduces [0] S512 := by decide
  simp only [Host.reduceAdd, Ideal.hostReduceAdd_def]
  refine (Ideal.hostReduceAdd_single _ h y _ (ix1 c)).trans ?_
  rw [show (constant (F := Ideal) S_ .f32 0x00000000#32) (Shape.Idx.first h_S_) = (0 : EReal) from zero_word, zero_add]
  exact Finset.sum_congr rfl fun k _ => congrArg y (funext fun a => Fin.ext (by
    match a with
    | ⟨0, _⟩ => rfl
    | ⟨1, _⟩ => rfl))

/-- The pooled vector at column `c`. -/
theorem pooledOf_apply (R : (⟨S64x512, .f32⟩ : BufTy).Contents (Elt Ideal)) (c : Fin 512) :
    pooledOf R (ix1 c)
      = Ideal.div (∑ t : Fin 8, Ideal.div (∑ e : Fin 8,
            R (ix2 (⟨8 * t.val + e.val, by have := t.isLt; have := e.isLt; omega⟩ : Fin 64) c)) (Ideal.ofBits .f32 0x41000000#32))
          (Ideal.ofBits .f32 0x46000000#32) := by
  unfold pooledOf
  show Ideal.div (Host.reduceAdd (F := Ideal) _ _ reducesTo_S8x512_S512_d0 h_S_ (ix1 c))
      (broadcastInDim S512 ![] bcast_S_S512 (constant (F := Ideal) S_ .f32 0x46000000#32) (ix1 c)) = _
  rw [sumTiles_apply]
  rw [show broadcastInDim S512 ![] bcast_S_S512 (constant (F := Ideal) S_ .f32 0x46000000#32) (ix1 c) = Ideal.ofBits .f32 0x46000000#32 from
    broadcastInDim_apply _ bcast_S_S512 _ (ix1 c) (fun a => a.elim0) (fun a => a.elim0)]
  refine congrArg (fun s => Ideal.div s (Ideal.ofBits .f32 0x46000000#32)) (Finset.sum_congr rfl fun t _ => ?_)
  show Ideal.div (Host.reduceAdd (F := Ideal) _ _ reducesTo_S8x8x512_S8x512_d1 h_S_ (ix2 t c))
      (broadcastInDim S8x512 ![] bcast_S_S8x512 (constant (F := Ideal) S_ .f32 0x41000000#32) (ix2 t c)) = _
  rw [sumCopies_apply]
  rw [show broadcastInDim S8x512 ![] bcast_S_S8x512 (constant (F := Ideal) S_ .f32 0x41000000#32) (ix2 t c) = Ideal.ofBits .f32 0x41000000#32 from
    broadcastInDim_apply _ bcast_S_S8x512 _ (ix2 t c) (fun a => a.elim0) (fun a => a.elim0)]
  refine congrArg (fun s => Ideal.div s (Ideal.ofBits .f32 0x41000000#32)) (Finset.sum_congr rfl fun e _ => ?_)
  exact reshape_apply R t e c

end Cert.KernelIdeal.Tail

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.KernelPayload.lean ====
/-
  The kernel body's payloads read at an index, at the ideal values: one trip of the body is one step of the running
  softmax.

  With q a tile of 1024 query rows and kv a chunk of 1024 key rows, a trip computes the scores s r j = Σ_k q r k · kv j k,
  moves each row's maximum to max (m r) (max_j s r j), rescales the carried denominator and weighted sum by
  exp (m_old − m_new) and adds the chunk's terms Σ_j exp (s r j − m_new) and Σ_j exp (s r j − m_new) · kv j c.
  After the last trip the output block holds, in each of its eight rows, the column sums Σ_r acc r c / l r.
-/
import proofs.«149267_j80229989089751_2_alg».proof.Proof.KernelPieces
import proofs.«149267_j80229989089751_2_alg».proof.Proof.Spec
import proofs.«149267_j80229989089751_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- A [1024, 512] block as a matrix. -/
def matOf (v : Vec Ideal S1024x512 .bf16) : Cert.Spec.Mat 1024 512 := fun r k => v (ix2 r k)

/-- The carried arrays as the running softmax's state: the two columns read at their one column index. -/
def stOf (s : Cert.KernelIdeal.Pieces.VSt Ideal) : Cert.Spec.St :=
  ⟨fun r => s.m (ix2 r (0 : Fin 1)), fun r => s.l (ix2 r (0 : Fin 1)), fun r c => s.acc (ix2 r c)⟩

/-- The word 0xFF800000 is −∞. -/
theorem negInf_eq : Ideal.ofBits .f32 0xFF800000#32 = (⊥ : EReal) := by simp [Ideal.ofBits, Ideal.ieee]

/-- The zeroing stores leave the running softmax's initial state: maximum −∞, both sums zero. -/
theorem zeroed_spec : stOf (Cert.KernelIdeal.Pieces.zeroed (F := Ideal)) = Cert.Spec.init := by
  unfold stOf Cert.KernelIdeal.Pieces.zeroed Cert.Spec.init
  have e2 : ∀ r : Fin 1024, k0_pay2 (F := Ideal) (ix2 r (0 : Fin 1)) = (⊥ : EReal) := fun r => by
    unfold k0_pay2
    refine (congrFun (shapeCast_self _ _) _).trans ?_
    exact negInf_eq
  have e3 : ∀ r : Fin 1024, k0_pay3 (F := Ideal) (ix2 r (0 : Fin 1)) = (0 : EReal) := fun r => by
    unfold k0_pay3
    refine (congrFun (shapeCast_self _ _) _).trans ?_
    exact Ideal.ofBits_zero_f32
  have e4 : ∀ (r : Fin 1024) (c : Fin 512), k0_pay4 (F := Ideal) (ix2 r c) = (0 : EReal) := fun r c => by
    unfold k0_pay4
    refine (congrFun (shapeCast_self _ _) _).trans ?_
    exact Ideal.ofBits_zero_f32
  simp only [e2, e3, e4]

/-- The first product's left operand index keeps the output row … -/
theorem qk_lhs0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
/-- … and its right operand index takes the output column as its row. -/
theorem qk_rhs0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- The scores of a tile against a chunk: the first product contracts the second axis of both operands. -/
theorem qk_apply (a b : FVec Ideal S1024x512 .bf16) (r j : Fin 1024) :
    FloatOps.matmul dot_S1024x512_S1024x512_S1024x1024_1_1_0_0_n_n none a b
        (constant (F := Ideal) S1024x1024 .f32 0x00000000#32) (ix2 r j)
      = ∑ k : Fin 512, a (ix2 r k) * b (ix2 j k) := by
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r j)
      ((contrEquiv1 dot_S1024x512_S1024x512_S1024x1024_1_1_0_0_n_n 512 rfl rfl).symm k) = ix2 r k :=
    funext fun c => Fin.ext (by
      match c with
      | ⟨0, _⟩ => exact qk_lhs0 _ _
      | ⟨1, _⟩ => exact (dot_S1024x512_S1024x512_S1024x1024_1_1_0_0_n_n.lhsIdx_val_of_single rfl _ _).trans hk)
  have er : dot_S1024x512_S1024x512_S1024x1024_1_1_0_0_n_n.rhsIdx (ix2 r j)
      ((contrEquiv1 dot_S1024x512_S1024x512_S1024x1024_1_1_0_0_n_n 512 rfl rfl).symm k) = ix2 j k :=
    funext fun c => Fin.ext (by
      match c with
      | ⟨0, _⟩ => exact qk_rhs0 _ _
      | ⟨1, _⟩ => exact (dot_S1024x512_S1024x512_S1024x1024_1_1_0_0_n_n.rhsIdx_val_of_single rfl _ _).trans hk)
  rw [el, er]

/-- The second product's left operand index keeps the output row … -/
theorem pv_lhs0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
/-- … and its right operand index keeps the output column. -/
theorem pv_rhs1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The weights applied to a chunk: the second product contracts the left operand's columns with the right's rows. -/
theorem pv_apply (a : FVec Ideal S1024x1024 .bf16) (b : FVec Ideal S1024x512 .bf16) (r : Fin 1024) (c : Fin 512) :
    FloatOps.matmul dot_S1024x1024_S1024x512_S1024x512_1_0_0_1_n_n none a b
        (constant (F := Ideal) S1024x512 .f32 0x00000000#32) (ix2 r c)
      = ∑ j : Fin 1024, a (ix2 r j) * b (ix2 j c) := by
  rw [Ideal.matmul_constant_zero_apply,
    ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 r c)
      ((contrEquiv1 dot_S1024x1024_S1024x512_S1024x512_1_0_0_1_n_n 1024 rfl rfl).symm k) = ix2 r k :=
    funext fun d => Fin.ext (by
      match d with
      | ⟨0, _⟩ => exact pv_lhs0 _ _
      | ⟨1, _⟩ => exact (dot_S1024x1024_S1024x512_S1024x512_1_0_0_1_n_n.lhsIdx_val_of_single rfl _ _).trans hk)
  have er : dot_S1024x1024_S1024x512_S1024x512_1_0_0_1_n_n.rhsIdx (ix2 r c)
      ((contrEquiv1 dot_S1024x1024_S1024x512_S1024x512_1_0_0_1_n_n 1024 rfl rfl).symm k) = ix2 k c :=
    funext fun d => Fin.ext (by
      match d with
      | ⟨0, _⟩ => exact (dot_S1024x1024_S1024x512_S1024x512_1_0_0_1_n_n.rhsIdx_val_of_single rfl _ _).trans hk
      | ⟨1, _⟩ => exact pv_rhs1 _ _)
  rw [el, er]

/-! ## The three reductions over one axis, read at an index -/

/-- The reduced row index r with the column k put back is (r, k). -/
theorem lift_row (h : S1024x1024.Reduces [1] S1024) (r : Fin 1024) (k : Fin (S1024x1024.size 1)) :
    h.lift (ix1 r) k = ix2 r (⟨k.val, k.isLt⟩ : Fin 1024) := by
  funext c; apply Fin.ext
  match c with
  | ⟨0, _⟩ => rfl
  | ⟨1, _⟩ => rfl

/-- The reduced column index c with the row k put back is (k, c). -/
theorem lift_col (h : S1024x512.Reduces [0] S512) (c : Fin 512) (k : Fin (S1024x512.size 0)) :
    h.lift (ix1 c) k = ix2 (⟨k.val, k.isLt⟩ : Fin 1024) c := by
  funext d; apply Fin.ext
  match d with
  | ⟨0, _⟩ => rfl
  | ⟨1, _⟩ => rfl

/-- A row's maximum from −∞. -/
theorem rowMax_apply (v : FVec Ideal S1024x1024 .f32) (h : S1024x1024.Reduces [1] S1024) (hφ : FKind.Formats .f32)
    (hacc : (0xFF800000#32 : BitVec 32) = FKind.maximumf.neutral .f32 hφ) (r : Fin 1024) :
    multiReduction (F := Ideal) .maximumf [1] S1024 v 0xFF800000#32 h hφ hacc (ix1 r)
      = (Finset.univ : Finset (Fin 1024)).fold max (⊥ : EReal) (fun j => v (ix2 r j)) := by
  refine (Ideal.multiReduction_maximumf_single v _ h hφ hacc (ix1 r)).trans ?_
  have hf : (v ∘ h.lift (ix1 r)) = fun j : Fin 1024 => v (ix2 r j) := funext fun k => congrArg v (lift_row h r k)
  have hb : FloatOps.ofBits (F := Ideal) .f32 0xFF800000#32 = (⊥ : EReal) := negInf_eq
  exact congrArg₂ (fun b f => Finset.fold max (b : EReal) f (Finset.univ : Finset (Fin 1024))) hb hf

/-- A row's sum. -/
theorem rowSum_apply (v : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 v 0x00000000#32 h hφ hacc (ix1 r) = ∑ j : Fin 1024, v (ix2 r j) :=
  (Ideal.multiReduction_add_single v _ h hφ hacc (ix1 r)).trans
    (Finset.sum_congr rfl fun k _ => congrArg v (lift_row h r k))

/-- A column's sum. -/
theorem colSum_apply (v : FVec Ideal S1024x512 .f32) (h : S1024x512.Reduces [0] S512) (hφ : FKind.Formats .f32)
    (hacc : (0x00000000#32 : BitVec 32) = FKind.add.neutral .f32 hφ) (c : Fin 512) :
    multiReduction (F := Ideal) .add [0] S512 v 0x00000000#32 h hφ hacc (ix1 c) = ∑ r : Fin 1024, v (ix2 r c) :=
  (Ideal.multiReduction_add_single v _ h hφ hacc (ix1 c)).trans
    (Finset.sum_congr rfl fun k _ => congrArg v (lift_col h c k))

/-! ## The payloads at an index -/

/-- The chunk's cast to its own shape is the chunk. -/
theorem pay6_eq (kv : Vec Ideal S1024x512 .bf16) : k0_pay6 (F := Ideal) kv = kv := by
  unfold k0_pay6; exact shapeCast_self _ _

/-- The scores. -/
theorem pay7_apply (q : FVec Ideal S1024x512 .bf16) (kv : Vec Ideal S1024x512 .bf16) (r j : Fin 1024) :
    k0_pay7 q kv (ix2 r j) = ∑ k : Fin 512, q (ix2 r k) * kv (ix2 j k) := by
  unfold k0_pay7
  rw [pay6_eq]
  exact qk_apply q kv r j

/-- The new maximum: the old one against the chunk's largest score. -/
theorem pay8_apply (q : FVec Ideal S1024x512 .bf16) (kv : Vec Ideal S1024x512 .bf16) (m : Vec Ideal S1024x1 .f32)
    (r : Fin 1024) :
    k0_pay8 q kv m (ix2 r (0 : Fin 1))
      = max (m (ix2 r (0 : Fin 1))) ((Finset.univ : Finset (Fin 1024)).fold max (⊥ : EReal) (fun j => k0_pay7 q kv (ix2 r j))) := by
  unfold k0_pay8
  refine congrArg (max (m (ix2 r (0 : Fin 1)))) ?_
  refine (shapeCast_a_a1_apply _ _ r (0 : Fin 1)).trans ?_
  exact rowMax_apply _ _ _ _ r

/-- The rescaling factor exp (m_old − m_new). -/
theorem pay9_apply (q : FVec Ideal S1024x512 .bf16) (kv : Vec Ideal S1024x512 .bf16) (m : Vec Ideal S1024x1 .f32)
    (r : Fin 1024) :
    k0_pay9 q kv m (ix2 r (0 : Fin 1)) = Ideal.exp (m (ix2 r (0 : Fin 1)) - k0_pay8 q kv m (ix2 r (0 : Fin 1))) := by
  unfold k0_pay9; rfl

/-- The chunk's shifted exponentials. -/
theorem pay10_apply (q : FVec Ideal S1024x512 .bf16) (kv : Vec Ideal S1024x512 .bf16) (m : Vec Ideal S1024x1 .f32)
    (r j : Fin 1024) :
    k0_pay10 q kv m (ix2 r j) = Ideal.exp (k0_pay7 q kv (ix2 r j) - k0_pay8 q kv m (ix2 r (0 : Fin 1))) := by
  unfold k0_pay10
  exact congrArg (fun t => Ideal.exp (k0_pay7 q kv (ix2 r j) - t)) (broadcastTo_a1_ab_apply _ _ r j)

/-- The new denominator. -/
theorem pay11_apply (q : FVec Ideal S1024x512 .bf16) (kv : Vec Ideal S1024x512 .bf16) (m l : Vec Ideal S1024x1 .f32)
    (r : Fin 1024) :
    k0_pay11 q kv m l (ix2 r (0 : Fin 1))
      = k0_pay9 q kv m (ix2 r (0 : Fin 1)) * l (ix2 r (0 : Fin 1)) + ∑ j : Fin 1024, k0_pay10 q kv m (ix2 r j) := by
  unfold k0_pay11
  refine (congrFun (shapeCast_self _ _) _).trans ?_
  refine congrArg (k0_pay9 q kv m (ix2 r (0 : Fin 1)) * l (ix2 r (0 : Fin 1)) + ·) ?_
  refine (shapeCast_a_a1_apply _ _ r (0 : Fin 1)).trans ?_
  exact rowSum_apply _ _ _ _ r

/-- The new weighted sum. -/
theorem pay12_apply (q : FVec Ideal S1024x512 .bf16) (kv : Vec Ideal S1024x512 .bf16) (m : Vec Ideal S1024x1 .f32)
    (acc : Vec Ideal S1024x512 .f32) (r : Fin 1024) (c : Fin 512) :
    k0_pay12 q kv m acc (ix2 r c)
      = k0_pay9 q kv m (ix2 r (0 : Fin 1)) * acc (ix2 r c) + ∑ j : Fin 1024, k0_pay10 q kv m (ix2 r j) * kv (ix2 j c) := by
  unfold k0_pay12
  rw [pay6_eq]
  refine (congrFun (shapeCast_self _ _) _).trans ?_
  refine congrArg₂ (· + ·) (congrArg (· * acc (ix2 r c)) (broadcastTo_a1_ab_apply _ _ r c)) ?_
  exact pv_apply _ kv r c

/-- The maximum the trip carries on is the new maximum. -/
theorem pay13_eq (q : FVec Ideal S1024x512 .bf16) (kv : Vec Ideal S1024x512 .bf16) (m : Vec Ideal S1024x1 .f32) :
    k0_pay13 q kv m = k0_pay8 q kv m := by
  unfold k0_pay13; exact shapeCast_self _ _

/-- The output block: in every row, the column sums of the weighted sum over the denominator. -/
theorem pay5_apply (acc : Vec Ideal S1024x512 .f32) (l : Vec Ideal S1024x1 .f32) (e : Fin 8) (c : Fin 512) :
    k0_pay5 acc l (ix2 e c) = ∑ r : Fin 1024, Ideal.div (acc (ix2 r c)) (l (ix2 r (0 : Fin 1))) := by
  unfold k0_pay5
  refine (broadcastTo_1b_ab_apply _ _ e c).trans ?_
  refine (congrFun (shapeCast_self _ _) _).trans ?_
  refine (shapeCast_a_1a_apply _ _ (0 : Fin 1) c).trans ?_
  refine (colSum_apply _ _ _ _ c).trans ?_
  refine Finset.sum_congr rfl fun r _ => ?_
  exact congrArg (Ideal.div (acc (ix2 r c))) (broadcastTo_a1_ab_apply l _ r c)

/-! ## One trip is one step of the running softmax -/

/-- The scores are the specification's block scores. -/
theorem pay7_spec (q : FVec Ideal S1024x512 .bf16) (kv : Vec Ideal S1024x512 .bf16) (r j : Fin 1024) :
    k0_pay7 q kv (ix2 r j) = Cert.Spec.blkScore (matOf q) (matOf kv) r j :=
  pay7_apply q kv r j

/-- The new maximum is the specification's. -/
theorem pay8_spec (q : FVec Ideal S1024x512 .bf16) (kv : Vec Ideal S1024x512 .bf16) (s : Cert.KernelIdeal.Pieces.VSt Ideal)
    (r : Fin 1024) :
    k0_pay8 q kv s.m (ix2 r (0 : Fin 1)) = Cert.Spec.newMax (matOf q) (matOf kv) (stOf s) r := by
  rw [pay8_apply]
  have hf : (fun j => k0_pay7 q kv (ix2 r j)) = fun j => Cert.Spec.blkScore (matOf q) (matOf kv) r j :=
    funext fun j => pay7_spec q kv r j
  rw [hf]
  rfl

/-- One trip of the body on the carried arrays is one step of the running softmax on the state they spell. -/
theorem vstep_spec (q : FVec Ideal S1024x512 .bf16) (kv : Vec Ideal S1024x512 .bf16) (s : Cert.KernelIdeal.Pieces.VSt Ideal) :
    stOf (Cert.KernelIdeal.Pieces.vstep q kv s) = Cert.Spec.step (matOf q) (matOf kv) (stOf s) := by
  have hm : ∀ r : Fin 1024, k0_pay13 q kv s.m (ix2 r (0 : Fin 1)) = (Cert.Spec.step (matOf q) (matOf kv) (stOf s)).m r :=
    fun r => by rw [pay13_eq]; exact pay8_spec q kv s r
  have hl : ∀ r : Fin 1024, k0_pay11 q kv s.m s.l (ix2 r (0 : Fin 1)) = (Cert.Spec.step (matOf q) (matOf kv) (stOf s)).l r :=
    fun r => by
      rw [pay11_apply, pay9_apply, pay8_spec]
      show _ = Ideal.exp ((stOf s).m r - Cert.Spec.newMax (matOf q) (matOf kv) (stOf s) r) * (stOf s).l r
        + ∑ j : Fin 1024, Ideal.exp (Cert.Spec.blkScore (matOf q) (matOf kv) r j - Cert.Spec.newMax (matOf q) (matOf kv) (stOf s) r)
      refine congrArg (_ + ·) (Finset.sum_congr rfl fun j _ => ?_)
      rw [pay10_apply, pay7_spec, pay8_spec]
  have hacc : ∀ (r : Fin 1024) (c : Fin 512),
      k0_pay12 q kv s.m s.acc (ix2 r c) = (Cert.Spec.step (matOf q) (matOf kv) (stOf s)).acc r c :=
    fun r c => by
      rw [pay12_apply, pay9_apply, pay8_spec]
      show _ = Ideal.exp ((stOf s).m r - Cert.Spec.newMax (matOf q) (matOf kv) (stOf s) r) * (stOf s).acc r c
        + ∑ j : Fin 1024, Ideal.exp (Cert.Spec.blkScore (matOf q) (matOf kv) r j - Cert.Spec.newMax (matOf q) (matOf kv) (stOf s) r)
            * matOf kv j c
      refine congrArg (_ + ·) (Finset.sum_congr rfl fun j _ => ?_)
      rw [pay10_apply, pay7_spec, pay8_spec]
      rfl
  show Cert.Spec.St.mk _ _ _ = Cert.Spec.St.mk _ _ _
  rw [Cert.Spec.St.mk.injEq]
  exact ⟨funext hm, funext hl, funext fun r => funext fun c => hacc r c⟩

end Cert.KernelIdeal.Payload

end
-- ==== Proof.KernelChunks.lean ====
/-
  The rows the kernel body loads are the specification's row blocks of the input. At grid point t the body loads
  the 1024 × 512 rectangle of the input at offset (1024·t, 0) — its tile of query rows — and trip k of its loop loads
  the rectangle at offset (1024·k, 0) — a chunk of key rows. A unit-stride rectangle places the index (r, c) at
  (offset₀ + r, offset₁ + c), so what is loaded at (r, c) is the input at (1024·t + r, c), respectively
  (1024·k + r, c): the specification's block t, respectively k, of the input read as a matrix. (The shape cast of the
  tile is to its own shape, hence the identity.)
-/
import proofs.«149267_j80229989089751_2_alg».proof.Proof.KernelPieces
import proofs.«149267_j80229989089751_2_alg».proof.Proof.Spec
import Idealize.ShloMosaic.Lib.ValueIdx
import Idealize.ShloMosaic.Lib.Pipeline.Value
import Idealize.ShloMosaic.PureOps.Ideal

noncomputable section

namespace Cert.KernelIdeal.Chunks

open Cert.KernelIdeal Cert.KernelIdeal.Gen
open Idealize.ShloMosaic Idealize.ShloMosaic.ValueIdx

/-- The coordinate of grid point `t` is `t` itself. -/
theorem coord_eq : ∀ t : Fin grid0.N, (grid0.coords t 0).val = t.val := by decide +kernel

/-- Where the tile's rectangle at grid point `t` places the index `(r, k)`: row `1024·t + r`, column `k`. -/
theorem q_idx (t : Fin cfg0.N) (r : Fin 1024) (k : Fin 512) (h : 1024 * t.val + r.val < 8192) :
    (Rect.unit (s := S8192x512) (k0_off1 (grid0.coords t)) S1024x512.size (k0_off1_inb (grid0.coords t))).idx (ix2 r k)
      = ix2 (⟨1024 * t.val + r.val, h⟩ : Fin 8192) k := by
  funext a
  apply Fin.ext
  match a with
  | ⟨0, _⟩ =>
    simp only [LoadRect.idx_apply, Rect.off_unit, Rect.stride_unit, Nat.one_mul, k0_off1_eq]
    show 1024 * (grid0.coords t 0).val + r.val = 1024 * t.val + r.val
    rw [coord_eq t]
  | ⟨1, _⟩ =>
    simp only [LoadRect.idx_apply, Rect.off_unit, Rect.stride_unit, Nat.one_mul, k0_off1_eq]
    show 0 + k.val = k.val
    exact Nat.zero_add _

/-- Where the rectangle of trip `k`'s chunk places the index `(r, c)`: row `1024·k + r`, column `c`. -/
theorem kv_idx (k : Fin k0_t1_loop.trips) (r : Fin 1024) (c : Fin 512) (h : 1024 * k.val + r.val < 8192) :
    (Rect.unit (s := S8192x512) (k0_off2 k) S1024x512.size (k0_off2_inb k)).idx (ix2 r c)
      = ix2 (⟨1024 * k.val + r.val, h⟩ : Fin 8192) c := by
  funext a
  apply Fin.ext
  match a with
  | ⟨0, _⟩ =>
    simp only [LoadRect.idx_apply, Rect.off_unit, Rect.stride_unit, Nat.one_mul, k0_off2_eq]
    rfl
  | ⟨1, _⟩ =>
    simp only [LoadRect.idx_apply, Rect.off_unit, Rect.stride_unit, Nat.one_mul, k0_off2_eq]
    show 0 + c.val = c.val
    exact Nat.zero_add _

/-- The tile of query rows grid point `t` loads is block `t` of the input. -/
theorem q_blk (X : Vec Ideal S8192x512 .bf16) (t : Fin cfg0.N) (ht : t.val < 8) :
    (fun (r : Fin 1024) (k : Fin 512) => (Cert.KernelIdeal.Pieces.qOf (grid0.coords t) X) (ix2 r k))
      = Cert.Spec.blk (fun r k => X (ix2 r k)) ⟨t.val, ht⟩ := by
  funext r k
  unfold Cert.KernelIdeal.Pieces.qOf k0_pay1
  rw [shapeCast_self]
  exact congrArg X (q_idx t r k _)

/-- The chunk of key rows trip `k` loads is block `k` of the input. -/
theorem kv_blk (X : Vec Ideal S8192x512 .bf16) (k : Fin k0_t1_loop.trips) (hk : k.val < 8) :
    (fun (r : Fin 1024) (c : Fin 512) => (Cert.KernelIdeal.Pieces.kvAt X k) (ix2 r c))
      = Cert.Spec.blk (fun r k => X (ix2 r k)) ⟨k.val, hk⟩ := by
  funext r c
  unfold Cert.KernelIdeal.Pieces.kvAt
  exact congrArg X (kv_idx k r c _)

end Cert.KernelIdeal.Chunks

end
-- ==== Proof.KernelValue.lean ====
/-
  The kernel's value at the ideal instance.

  With every format change the identity, the array the region reads is the input matrix `x`. At grid point `t` the
  tile of query rows is `blk x t` and trip `k`'s chunk of key rows is `blk x k`; one trip is the specification's
  `step`, so after the eight trips the carried state is `online x t 8` and the point's output block holds
  `tileSum x t c` in every row of column `c`. The host operations after the region then make `kerPooled x` of it and
  normalise. The kernel's run is re-posted with that value.
-/
import proofs.«149267_j80229989089751_2_alg».proof.Proof.KernelTail
import proofs.«149267_j80229989089751_2_alg».proof.Proof.KernelPayload
import proofs.«149267_j80229989089751_2_alg».proof.Proof.KernelChunks

set_option maxRecDepth 16384

noncomputable section

namespace Cert.KernelIdeal.Value

open Cert.KernelIdeal Cert.KernelIdeal.Gen Cert.KernelIdeal.Pieces Cert.KernelIdeal.Payload
open Idealize.ShloMosaic Idealize.ShloMosaic.TcCoe Idealize.ShloMosaic.ValueIdx Idealize.SL.Sem
open scoped BigOperators

/-- The [8192, 512] array the region reads, as a matrix. -/
def matX (X : Vec Ideal S8192x512 .bf16) : Cert.Spec.Mat 8192 512 := fun r k => X (ix2 r k)

/-- The carried state after `k` trips is the specification's, for `k` up to eight. -/
theorem run_spec (X : Vec Ideal S8192x512 .bf16) (t : Fin cfg0.N) (ht : t.val < 8) (k : ℕ) (hk : k ≤ 8) :
    stOf (run (qOf (grid0.coords t) X) (kvAt X) zeroed k) = Cert.Spec.online (matX X) ⟨t.val, ht⟩ k := by
  induction k with
  | zero => exact zeroed_spec
  | succ k ih =>
    have hk8 : k < 8 := hk
    have hkt : k < k0_t1_loop.trips := by rw [trips_eq]; exact hk8
    rw [show run (qOf (grid0.coords t) X) (kvAt X) zeroed (k + 1) = _ from
      run_succ (qOf (grid0.coords t) X) (kvAt X) zeroed ⟨k, hkt⟩]
    rw [vstep_spec, ih (Nat.le_of_lt hk8)]
    rw [show matOf (qOf (grid0.coords t) X) = Cert.Spec.blk (matX X) ⟨t.val, ht⟩ from
      Cert.KernelIdeal.Chunks.q_blk X t ht]
    rw [show matOf (kvAt X ⟨k, hkt⟩) = Cert.Spec.blk (matX X) ⟨k, hk8⟩ from
      Cert.KernelIdeal.Chunks.kv_blk X ⟨k, hkt⟩ hk8]
    show _ = if h : k < 8 then Cert.Spec.step (Cert.Spec.blk (matX X) ⟨t.val, ht⟩) (Cert.Spec.blk (matX X) ⟨k, h⟩)
      (Cert.Spec.online (matX X) ⟨t.val, ht⟩ k) else Cert.Spec.online (matX X) ⟨t.val, ht⟩ k
    rw [dif_pos hk8]

/-- The carried state after all the trips. -/
theorem final_spec (X : Vec Ideal S8192x512 .bf16) (t : Fin cfg0.N) (ht : t.val < 8) :
    stOf (final (grid0.coords t) X) = Cert.Spec.online (matX X) ⟨t.val, ht⟩ 8 := by
  unfold final
  rw [trips_eq]
  exact run_spec X t ht 8 le_rfl

/-- Row `8t + e`, column `c` of the region's result is tile `t`'s contribution to column `c`. -/
theorem raw_apply (X : Vec Ideal S8192x512 .bf16) (t e : Fin 8) (c : Fin 512) :
    Cert.KernelIdeal.Blocks.raw X (ix2 (⟨8 * t.val + e.val, by have := t.isLt; have := e.isLt; omega⟩ : Fin 64) c)
      = Cert.Spec.tileSum (matX X) t c := by
  have htN : t.val < cfg0.N := by show _ < grid0.N; rw [N_0]; exact t.isLt
  rw [Cert.KernelIdeal.Blocks.raw_at X ⟨t.val, htN⟩ (ix2 e c) _ (by show 8 * t.val + e.val = t.val * 8 + e.val; omega) rfl]
  unfold Cert.KernelIdeal.Blocks.blockAt
  rw [pay5_apply]
  unfold Cert.Spec.tileSum
  rw [← final_spec X ⟨t.val, htN⟩ t.isLt]
  rfl

variable (m : (ℓ : Loc nD τ sig) → Buf (Elt Ideal) ℓ) (ρ : Dev nD → PrngReg)

/-- The array the region reads, as a matrix, is the input matrix. -/
theorem matX_V (c : Dev nD) :
    matX (V m c main_v0) = Cert.Normalize.toMat (m ((c.tc : Thread nD τ).loc main_arg0)) := by
  rw [Cert.KernelIdeal.Tail.V_main_v0]
  rfl

/-- The program's result: the normalised pooled vector of the specification. -/
theorem value_eq (c : Dev nD) :
    Pipeline.afterTail₀ cfgs (dats m) 0 (V0 m) [hostOps1, hostOps1_1, hostOps1_2] c main_v12
      = Cert.Normalize.normalize (Cert.Normalize.vecOf
          (Cert.Spec.kerPooled (Cert.Normalize.toMat (m ((c.tc : Thread nD τ).loc main_arg0))))) := by
  rw [Cert.KernelIdeal.Tail.tail_eq, Cert.KernelIdeal.Blocks.final_raw]
  refine congrArg Cert.Normalize.normalize (funext fun i => ?_)
  obtain ⟨cc, rfl⟩ : ∃ cc : Fin 512, i = ix1 cc := ⟨i 0, eq_ix1 i⟩
  rw [Cert.KernelIdeal.Tail.pooledOf_apply]
  show _ = Cert.Spec.kerPooled _ cc
  unfold Cert.Spec.kerPooled
  rw [← matX_V]
  refine congrArg (fun s => Ideal.div s (Ideal.ofBits .f32 0x46000000#32)) (Finset.sum_congr rfl fun t _ => ?_)
  refine congrArg (fun s => Ideal.div s (Ideal.ofBits .f32 0x41000000#32)) (Finset.sum_congr rfl fun e _ => ?_)
  exact raw_apply (V m c main_v0) t e cc

/-- The kernel's run, read: the result at the specification's value, the argument unchanged. -/
theorem run : θ_run defs (onTc (τ := τ) (main (F := Ideal))) ⟨m, fun _ => 0, ρ⟩ fun r => ∀ c : Dev nD,
      r.2.mem ((c.tc : Thread nD τ).loc main_v12)
        = Cert.Normalize.normalize (Cert.Normalize.vecOf
            (Cert.Spec.kerPooled (Cert.Normalize.toMat (m ((c.tc : Thread nD τ).loc main_arg0)))))
      ∧ r.2.mem ((c.tc : Thread nD τ).loc main_arg0) = m ((c.tc : Thread nD τ).loc main_arg0) :=
  (θ_run defs _ _).mono (fun _ h c =>
      ⟨((h c).2 main_v12 (Pipeline.mem_restRefs_of main_v12 (by decide) (by decide))).trans (value_eq m c),
       ((h c).2 main_arg0 (Pipeline.mem_restRefs_of main_arg0 (by decide) (by decide))).trans (W_main_arg0 m (dats m) c)⟩)
    (run_main m ρ)

end Cert.KernelIdeal.Value

end
-- ==== Proof.Algebra.lean ====
/-
  The extended-real algebra of the claim: for an input matrix all of whose entries are real, the kernel's pooled
  vector (a running softmax over eight chunks of 1024 keys, per tile of 1024 queries) equals the reference's (one
  softmax over all 8192 keys).

  The road. With real entries every score is a real number S(R,J). A softmax weight does not depend on the shift
  used inside the exponentials: for any real M,
      (Σ_J exp(S(R,J) − M) · x(J,c)) / (Σ_J exp(S(R,J) − M)) = (Σ_J exp S(R,J) · x(J,c)) / (Σ_J exp S(R,J)).
  So it is enough to know that the shift each side uses is SOME real number (a maximum of finitely many reals
  is), and that the kernel's two running sums are, after k chunks with running maximum m, the sums over the first
  1024·k keys shifted by m, that is exp(−m) times the unshifted sums: the rescaling by exp(m_old − m_new) turns a
  sum shifted by m_old into one shifted by m_new. Before the first chunk the maximum is −∞ and both sums are 0; the
  first step works because (−∞) − m = −∞, exp(−∞) = 0 and 0 · 0 = 0. The rest is re-indexing: the 8 × 1024 pairs
  (tile, row) — and (chunk, key) — are the 8192 rows, and eight copies of a real number summed and divided by
  eight give the number back.
-/
import proofs.«149267_j80229989089751_2_alg».proof.Proof.Spec

noncomputable section

namespace Cert.Algebra

open Idealize.ShloMosaic
open Cert.Spec
open scoped BigOperators

/-! ### Extended-real arithmetic on real arguments -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The coercion of the larger of two reals is the larger of the coercions. -/
theorem coe_max (p q : ℝ) : ((max p q : ℝ) : EReal) = max (p : EReal) (q : EReal) :=
  EReal.coe_strictMono.monotone.map_max

/-- The exponential of a difference of two reals. -/
theorem exp_coe_sub (p q : ℝ) : Ideal.exp ((p : EReal) - (q : EReal)) = ((Real.exp (p - q) : ℝ) : EReal) := by
  rw [← EReal.coe_sub, Ideal.exp_coe]

/-- The quotient of two reals, the divisor not zero. -/
theorem div_coe_coe (p q : ℝ) (hq : q ≠ 0) : Ideal.div (p : EReal) (q : EReal) = ((p / q : ℝ) : EReal) := by
  rw [Ideal.div_coe hq, ← EReal.coe_mul, mul_one_div]

/-- A maximum, started at −∞, of finitely many reals over a nonempty index set is a real. -/
theorem fold_max_coe {ι : Type*} (s : Finset ι) (hs : s.Nonempty) (f : ι → ℝ) :
    ∃ M : ℝ, s.fold max ⊥ (fun j => (f j : EReal)) = (M : EReal) := by
  induction hs using Finset.Nonempty.cons_induction with
  | singleton i => exact ⟨f i, by simp⟩
  | cons i s hi hs ih =>
    obtain ⟨M, hM⟩ := ih
    exact ⟨max (f i) M, by rw [Finset.fold_cons, hM, coe_max]⟩

/-- The word for 8.0 is the real 8. -/
theorem ofBits_eight : Ideal.ofBits .f32 0x41000000#32 = ((8 : ℝ) : EReal) := by
  simp [Ideal.ofBits, Ideal.ieee, -EReal.coe_mul]; norm_num

/-! ### The 8192 rows as 8 blocks of 1024 -/

/-- Row `r` of block `t`: the row `1024·t + r` of the input. -/
def idx (t : Fin 8) (r : Fin 1024) : Fin 8192 :=
  ⟨1024 * t.val + r.val, by have := t.isLt; have := r.isLt; omega⟩

/-- The pairs (block, row in the block) are the rows. -/
def idxEquiv : Fin 8 × Fin 1024 ≃ Fin 8192 where
  toFun p := idx p.1 p.2
  invFun R := (⟨R.val / 1024, by have := R.isLt; omega⟩, ⟨R.val % 1024, Nat.mod_lt _ (by norm_num)⟩)
  left_inv p := by
    rcases p with ⟨t, r⟩
    have ht := t.isLt
    have hr := r.isLt
    apply Prod.ext <;> apply Fin.ext <;> simp only [idx] <;> omega
  right_inv R := by
    apply Fin.ext; simp only [idx]; omega

/-- A sum over the rows is the sum over the blocks of the sums over a block's rows. -/
theorem sum_idx {M : Type*} [AddCommMonoid M] (f : Fin 8192 → M) :
    ∑ t : Fin 8, ∑ r : Fin 1024, f (idx t r) = ∑ R : Fin 8192, f R := by
  rw [← Fintype.sum_prod_type']
  exact Fintype.sum_equiv idxEquiv _ _ (fun _ => rfl)

/-! ### One step of the running softmax, for one query row -/

/-- Re-shifting: a sum shifted by `M` and rescaled by `exp (M − M')`, plus a chunk's terms shifted by `M'`, is the
    whole sum shifted by `M'`. -/
theorem reshift (M M' Z : ℝ) (s w : Fin 1024 → ℝ) :
    Real.exp (M - M') * (Real.exp (-M) * Z) + ∑ j, Real.exp (s j - M') * w j
      = Real.exp (-M') * (Z + ∑ j, Real.exp (s j) * w j) := by
  have e1 : Real.exp (M - M') * Real.exp (-M) = Real.exp (-M') := by
    rw [← Real.exp_add]; congr 1; ring
  have e2 : ∀ j, Real.exp (s j - M') = Real.exp (-M') * Real.exp (s j) := by
    intro j; rw [← Real.exp_add]; congr 1; ring
  rw [← mul_assoc, e1, mul_add, Finset.mul_sum]
  congr 1
  exact Finset.sum_congr rfl (fun j _ => by rw [e2 j, mul_assoc])

/-- What a query row carries after some chunks, in terms of the unshifted sums `Z = Σ exp s` and
    `W c = Σ exp s · v c` over the keys seen so far: either nothing has been seen (maximum −∞, all sums zero), or
    the maximum is a real `M` and the two running sums are `exp (−M) · Z` and `exp (−M) · W c`. -/
def RowInv (m l : EReal) (acc : Fin 512 → EReal) (Z : ℝ) (W : Fin 512 → ℝ) : Prop :=
  (m = ⊥ ∧ l = 0 ∧ (∀ c, acc c = 0) ∧ Z = 0 ∧ ∀ c, W c = 0) ∨
    ∃ M : ℝ, m = (M : EReal) ∧ l = ((Real.exp (-M) * Z : ℝ) : EReal) ∧
      ∀ c, acc c = ((Real.exp (-M) * W c : ℝ) : EReal)

/-- One chunk with real scores `s j` and real key rows `v j`: the new maximum is a real `M'`, and the rescaled sums
    plus the chunk's terms are `exp (−M')` times the unshifted sums extended by the chunk. -/
theorem rowStep (m l : EReal) (acc : Fin 512 → EReal) (Z : ℝ) (W : Fin 512 → ℝ)
    (sE : Fin 1024 → EReal) (vE : Fin 1024 → Fin 512 → EReal) (s : Fin 1024 → ℝ) (v : Fin 1024 → Fin 512 → ℝ)
    (hs : ∀ j, sE j = (s j : EReal)) (hv : ∀ j c, vE j c = (v j c : EReal))
    (h : RowInv m l acc Z W) :
    ∃ M' : ℝ, max m ((Finset.univ : Finset (Fin 1024)).fold max ⊥ (fun j => sE j)) = (M' : EReal) ∧
      Ideal.exp (m - max m ((Finset.univ : Finset (Fin 1024)).fold max ⊥ (fun j => sE j))) * l
          + ∑ j, Ideal.exp (sE j - max m ((Finset.univ : Finset (Fin 1024)).fold max ⊥ (fun j => sE j)))
        = ((Real.exp (-M') * (Z + ∑ j, Real.exp (s j)) : ℝ) : EReal) ∧
      ∀ c, Ideal.exp (m - max m ((Finset.univ : Finset (Fin 1024)).fold max ⊥ (fun j => sE j))) * acc c
          + ∑ j, Ideal.exp (sE j - max m ((Finset.univ : Finset (Fin 1024)).fold max ⊥ (fun j => sE j))) * vE j c
        = ((Real.exp (-M') * (W c + ∑ j, Real.exp (s j) * v j c) : ℝ) : EReal) := by
  have hsE : (fun j => sE j) = fun j => ((s j : ℝ) : EReal) := funext hs
  obtain ⟨C, hC⟩ := fold_max_coe (Finset.univ : Finset (Fin 1024)) Finset.univ_nonempty s
  rw [hsE, hC]
  rcases h with ⟨rfl, rfl, hacc, rfl, hW⟩ | ⟨M, rfl, rfl, hacc⟩
  · -- nothing seen yet: the new maximum is the chunk's, and the old sums contribute 0 · 0
    refine ⟨C, max_eq_right bot_le, ?_, ?_⟩
    · rw [max_eq_right bot_le, EReal.bot_sub, Ideal.exp_bot, mul_zero, zero_add]
      simp only [hs, exp_coe_sub]
      rw [← coe_sum]
      congr 1
      have := reshift 0 C 0 s (fun _ => 1)
      simpa using this
    · intro c
      rw [max_eq_right bot_le, EReal.bot_sub, Ideal.exp_bot, hacc c, mul_zero, zero_add, hW c]
      simp only [hs, hv, exp_coe_sub, ← EReal.coe_mul]
      rw [← coe_sum]
      congr 1
      have := reshift 0 C 0 s (fun j => v j c)
      simpa using this
  · -- a real maximum so far
    refine ⟨max M C, (coe_max M C).symm, ?_, ?_⟩
    · rw [← coe_max]
      simp only [hs, exp_coe_sub, ← EReal.coe_mul]
      rw [← coe_sum, ← EReal.coe_add]
      congr 1
      have := reshift M (max M C) Z s (fun _ => 1)
      simpa using this
    · intro c
      rw [← coe_max, hacc c]
      simp only [hs, hv, exp_coe_sub, ← EReal.coe_mul]
      rw [← coe_sum, ← EReal.coe_add]
      congr 1
      exact reshift M (max M C) (W c) s (fun j => v j c)

/-! ### A matrix of reals: scores, and the kernel's state after each chunk -/

/-- The matrix of extended reals a matrix of reals is. -/
def cx (a : Fin 8192 → Fin 512 → ℝ) : Mat 8192 512 := fun r k => (a r k : EReal)

/-- The real score of query row `R` against key row `J`. -/
def S (a : Fin 8192 → Fin 512 → ℝ) (R J : Fin 8192) : ℝ := ∑ k : Fin 512, a R k * a J k

theorem score_cx (a : Fin 8192 → Fin 512 → ℝ) (R J : Fin 8192) : score (cx a) R J = ((S a R J : ℝ) : EReal) := by
  simp only [score, cx, S, ← EReal.coe_mul]
  rw [← coe_sum]

/-- A tile's scores against a chunk are the scores of the rows the two blocks hold. -/
theorem blkScore_cx (a : Fin 8192 → Fin 512 → ℝ) (t u : Fin 8) (r j : Fin 1024) :
    blkScore (blk (cx a) t) (blk (cx a) u) r j = ((S a (idx t r) (idx u j) : ℝ) : EReal) :=
  score_cx a (idx t r) (idx u j)

theorem blk_cx (a : Fin 8192 → Fin 512 → ℝ) (u : Fin 8) (j : Fin 1024) (c : Fin 512) :
    blk (cx a) u j c = ((a (idx u j) c : ℝ) : EReal) := rfl

/-- Chunk `kk`'s part of the unshifted denominator of row `R` (zero past the eighth chunk). -/
def cZ (a : Fin 8192 → Fin 512 → ℝ) (R : Fin 8192) (kk : ℕ) : ℝ :=
  if h : kk < 8 then ∑ j : Fin 1024, Real.exp (S a R (idx ⟨kk, h⟩ j)) else 0

/-- Chunk `kk`'s part of the unshifted weighted sum of row `R`, column `c`. -/
def cW (a : Fin 8192 → Fin 512 → ℝ) (R : Fin 8192) (kk : ℕ) (c : Fin 512) : ℝ :=
  if h : kk < 8 then ∑ j : Fin 1024, Real.exp (S a R (idx ⟨kk, h⟩ j)) * a (idx ⟨kk, h⟩ j) c else 0

theorem online_succ (x : Mat 8192 512) (t : Fin 8) (k : ℕ) (h : k < 8) :
    online x t (k + 1) = step (blk x t) (blk x ⟨k, h⟩) (online x t k) := by
  rw [online, dif_pos h]

/-- After chunk `k` (the `k+1`-st), a row's maximum is a real and its sums are the unshifted sums over the chunks
    so far times `exp (−maximum)`, provided the state before the chunk was of the expected form. -/
theorem online_step (a : Fin 8192 → Fin 512 → ℝ) (t : Fin 8) (r : Fin 1024) (k : ℕ) (h : k < 8)
    (hinv : RowInv ((online (cx a) t k).m r) ((online (cx a) t k).l r) ((online (cx a) t k).acc r)
      (∑ kk ∈ Finset.range k, cZ a (idx t r) kk) (fun c => ∑ kk ∈ Finset.range k, cW a (idx t r) kk c)) :
    ∃ M : ℝ, (online (cx a) t (k + 1)).m r = (M : EReal) ∧
      (online (cx a) t (k + 1)).l r
        = ((Real.exp (-M) * ∑ kk ∈ Finset.range (k + 1), cZ a (idx t r) kk : ℝ) : EReal) ∧
      ∀ c, (online (cx a) t (k + 1)).acc r c
        = ((Real.exp (-M) * ∑ kk ∈ Finset.range (k + 1), cW a (idx t r) kk c : ℝ) : EReal) := by
  obtain ⟨M, hm, hl, hacc⟩ := rowStep _ _ _ _ _
    (fun j => blkScore (blk (cx a) t) (blk (cx a) ⟨k, h⟩) r j) (fun j c => blk (cx a) ⟨k, h⟩ j c)
    (fun j => S a (idx t r) (idx ⟨k, h⟩ j)) (fun j c => a (idx ⟨k, h⟩ j) c)
    (fun j => blkScore_cx a t ⟨k, h⟩ r j) (fun j c => blk_cx a ⟨k, h⟩ j c) hinv
  refine ⟨M, ?_, ?_, ?_⟩
  · rw [online_succ _ _ _ h]; exact hm
  · rw [online_succ _ _ _ h, Finset.sum_range_succ, cZ, dif_pos h]; exact hl
  · intro c
    rw [online_succ _ _ _ h, Finset.sum_range_succ, cW, dif_pos h]; exact hacc c

/-- The form of a row's state after any number of chunks up to eight. -/
theorem online_inv (a : Fin 8192 → Fin 512 → ℝ) (t : Fin 8) (r : Fin 1024) (k : ℕ) (hk : k ≤ 8) :
    RowInv ((online (cx a) t k).m r) ((online (cx a) t k).l r) ((online (cx a) t k).acc r)
      (∑ kk ∈ Finset.range k, cZ a (idx t r) kk) (fun c => ∑ kk ∈ Finset.range k, cW a (idx t r) kk c) := by
  induction k with
  | zero =>
    left
    refine ⟨rfl, rfl, fun _ => rfl, by simp, fun _ => by simp⟩
  | succ k ih => exact Or.inr (online_step a t r k (by omega) (ih (by omega)))

/-! ### The softmax of a row in unshifted form, and the two sides -/

/-- The unshifted denominator of row `R`: `Σ_J exp S(R,J)`. -/
def Zall (a : Fin 8192 → Fin 512 → ℝ) (R : Fin 8192) : ℝ := ∑ J : Fin 8192, Real.exp (S a R J)

/-- The unshifted weighted sum of row `R`, column `c`: `Σ_J exp S(R,J) · a J c`. -/
def Wall (a : Fin 8192 → Fin 512 → ℝ) (R : Fin 8192) (c : Fin 512) : ℝ :=
  ∑ J : Fin 8192, Real.exp (S a R J) * a J c

theorem Zall_pos (a : Fin 8192 → Fin 512 → ℝ) (R : Fin 8192) : 0 < Zall a R :=
  Finset.sum_pos (fun J _ => Real.exp_pos _) Finset.univ_nonempty

/-- The eight chunks' parts make up the unshifted denominator. -/
theorem sum_cZ (a : Fin 8192 → Fin 512 → ℝ) (R : Fin 8192) : ∑ kk ∈ Finset.range 8, cZ a R kk = Zall a R := by
  rw [← Fin.sum_univ_eq_sum_range (fun kk => cZ a R kk) 8, Zall, ← sum_idx]
  refine Finset.sum_congr rfl (fun kk _ => ?_)
  rw [cZ, dif_pos kk.isLt]

/-- The eight chunks' parts make up the unshifted weighted sum. -/
theorem sum_cW (a : Fin 8192 → Fin 512 → ℝ) (R : Fin 8192) (c : Fin 512) :
    ∑ kk ∈ Finset.range 8, cW a R kk c = Wall a R c := by
  rw [← Fin.sum_univ_eq_sum_range (fun kk => cW a R kk c) 8, Wall, ← sum_idx]
  refine Finset.sum_congr rfl (fun kk _ => ?_)
  rw [cW, dif_pos kk.isLt]

/-- The kernel's row after all eight chunks: `acc / l` is the unshifted softmax-weighted sum. -/
theorem ker_row (a : Fin 8192 → Fin 512 → ℝ) (t : Fin 8) (r : Fin 1024) (c : Fin 512) :
    Ideal.div ((online (cx a) t 8).acc r c) ((online (cx a) t 8).l r)
      = ((Wall a (idx t r) c / Zall a (idx t r) : ℝ) : EReal) := by
  obtain ⟨M, -, hl, hacc⟩ := online_step a t r 7 (by norm_num) (online_inv a t r 7 (by norm_num))
  have hc := hacc c
  simp only [Nat.reduceAdd] at hl hc
  rw [sum_cZ] at hl
  rw [sum_cW] at hc
  rw [hc, hl, div_coe_coe _ _ (mul_ne_zero (Real.exp_ne_zero _) (Zall_pos a _).ne'),
    mul_div_mul_left _ _ (Real.exp_ne_zero _)]

/-- The reference's attended row is the same unshifted softmax-weighted sum. -/
theorem attn_cx (a : Fin 8192 → Fin 512 → ℝ) (R : Fin 8192) (c : Fin 512) :
    attn (cx a) R c = ((Wall a R c / Zall a R : ℝ) : EReal) := by
  obtain ⟨M, hM⟩ := fold_max_coe (Finset.univ : Finset (Fin 8192)) Finset.univ_nonempty (fun J => S a R J)
  have hmax : rowMax (cx a) R = (M : EReal) := by
    rw [rowMax, show (fun j => score (cx a) R j) = fun j => ((S a R j : ℝ) : EReal) from funext (score_cx a R)]
    exact hM
  have hsh : ∀ J, Real.exp (S a R J - M) = Real.exp (-M) * Real.exp (S a R J) := by
    intro J; rw [← Real.exp_add, neg_add_eq_sub]
  have hex : ∀ J, ex (cx a) R J = ((Real.exp (S a R J - M) : ℝ) : EReal) := by
    intro J; rw [ex, score_cx, hmax, exp_coe_sub]
  have hdenR : ∑ J : Fin 8192, Real.exp (S a R J - M) = Real.exp (-M) * Zall a R := by
    rw [Zall, Finset.mul_sum]
    exact Finset.sum_congr rfl (fun J _ => hsh J)
  have hden : den (cx a) R = ((Real.exp (-M) * Zall a R : ℝ) : EReal) := by
    rw [den]
    simp only [hex]
    rw [← coe_sum, hdenR]
  have hZ : Zall a R ≠ 0 := (Zall_pos a R).ne'
  have hE : Real.exp (-M) ≠ 0 := Real.exp_ne_zero _
  have hD : Real.exp (-M) * Zall a R ≠ 0 := mul_ne_zero hE hZ
  have hterm : ∀ J, Real.exp (S a R J - M) / (Real.exp (-M) * Zall a R) * a J c
      = Real.exp (S a R J) * a J c / Zall a R := by
    intro J
    rw [hsh J, mul_div_mul_left _ _ hE, div_mul_eq_mul_div]
  have hattnR : ∑ J : Fin 8192, Real.exp (S a R J - M) / (Real.exp (-M) * Zall a R) * a J c
      = Wall a R c / Zall a R := by
    rw [Wall, Finset.sum_div]
    exact Finset.sum_congr rfl (fun J _ => hterm J)
  rw [attn]
  simp only [hex, hden, div_coe_coe _ _ hD, cx, ← EReal.coe_mul]
  rw [← coe_sum, hattnR]

/-- A tile's contribution is the sum of the reference's attended rows over the tile's rows, a real. -/
theorem tileSum_cx (a : Fin 8192 → Fin 512 → ℝ) (t : Fin 8) (c : Fin 512) :
    tileSum (cx a) t c = ((∑ r : Fin 1024, Wall a (idx t r) c / Zall a (idx t r) : ℝ) : EReal) := by
  rw [tileSum]
  simp only [ker_row]
  exact (coe_sum _ _).symm

/-- Eight copies of a real, summed and divided by eight, give the real back. -/
theorem eight_copies (T : ℝ) : (∑ _e : Fin 8, T) / 8 = T := by
  rw [Finset.sum_const, Finset.card_univ, Fintype.card_fin, nsmul_eq_mul]
  norm_num

/-- The kernel's pooled vector is the reference's, on a matrix of reals. -/
theorem kerPooled_eq_refPooled (x : Cert.Spec.Mat 8192 512)
    (hfin : ∀ r k, ∃ a : ℝ, x r k = (a : EReal)) :
    Cert.Spec.kerPooled x = Cert.Spec.refPooled x := by
  choose a ha using hfin
  obtain rfl : x = cx a := funext fun r => funext fun k => ha r k
  funext c
  have h1 : ∀ t : Fin 8, Ideal.div (∑ _e : Fin 8, tileSum (cx a) t c) (Ideal.ofBits .f32 0x41000000#32)
      = ∑ r : Fin 1024, attn (cx a) (idx t r) c := by
    intro t
    rw [tileSum_cx, ofBits_eight, ← coe_sum, div_coe_coe _ _ (by norm_num), eight_copies]
    simp only [attn_cx]
    exact coe_sum _ _
  have h2 : ∑ t : Fin 8, Ideal.div (∑ _e : Fin 8, tileSum (cx a) t c) (Ideal.ofBits .f32 0x41000000#32)
      = ∑ R : Fin 8192, attn (cx a) R c := by
    simp only [h1]
    exact sum_idx (fun R => attn (cx a) R c)
  rw [kerPooled, refPooled, h2]

end Cert.Algebra

end
-- ==== Proof.Finite.lean ====
/-
  From the precondition to "every entry of the input is a real number".

  The precondition says that the conjunction, over all entries x of the input, of |x| < +∞ is true. Hence each entry's
  absolute value max x (−x) is below ⊤, which excludes both ⊤ and ⊥, so the entry is the image of a real.
-/
import proofs.«149267_j80229989089751_2_alg».proof.Pre_finite_inputs
import proofs.«149267_j80229989089751_2_alg».proof.Proof.Normalize
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The word 0x7F800000 is +∞. -/
theorem posInf_eq : Ideal.ofBits .f32 0x7F800000#32 = (⊤ : EReal) := by simp [Ideal.ofBits, Ideal.ieee]

/-- Under the precondition every entry of the input matrix is the image of a real number. -/
theorem finite_of_pre [Cert.Pre_finite_inputs.Facts]
    (x0 : (⟨Cert.ReferenceIdeal.S8192x512, .f32⟩ : BufTy).Contents (Elt Ideal))
    (h : Cert.Pre_finite_inputs.fn (F := Ideal) x0 = fun _ => 1#1) :
    ∀ r k, ∃ a : ℝ, Cert.Normalize.toMat x0 r k = (a : EReal) := by
  intro r k
  have h0 := congrFun h ValueIdx.ix0
  dsimp only [Cert.Pre_finite_inputs.fn] at h0
  have he := Host.reduce_andi_all _ _ _ _ _ h0 (ix2 r k)
  have hb : (broadcastInDim Cert.Pre_finite_inputs.S8192x512 ![] Cert.Pre_finite_inputs.Facts.bcast_S_S8192x512
      (constant (F := Ideal) Cert.Pre_finite_inputs.S_ .f32 0x7F800000#32)) (ix2 r k)
        = Ideal.ofBits .f32 0x7F800000#32 :=
    broadcastInDim_apply _ _ _ (ix2 r k) (fun a => a.elim0) (fun a => a.elim0)
  have hlt : max (x0 (ix2 r k)) (-(x0 (ix2 r k))) < (⊤ : EReal) := by
    have he' : Ideal.cmp .olt (max (x0 (ix2 r k)) (-(x0 (ix2 r k)))) (Ideal.ofBits .f32 0x7F800000#32) = 1#1 := by
      rw [← hb]; exact he
    rw [posInf_eq] at he'
    have hc : ∀ b : Bool, BitVec.ofBool b = 1#1 → b = true := by decide
    have hd : decide (max (x0 (ix2 r k)) (-(x0 (ix2 r k))) < (⊤ : EReal)) = true := hc _ he'
    exact of_decide_eq_true hd
  have h1 : x0 (ix2 r k) ≠ (⊤ : EReal) := (lt_of_le_of_lt (le_max_left _ _) hlt).ne
  have h2 : x0 (ix2 r k) ≠ (⊥ : EReal) := fun e =>
    (lt_of_le_of_lt (le_max_right _ _) hlt).ne (EReal.neg_eq_top_iff.2 e)
  exact ⟨(x0 (ix2 r k)).toReal, (EReal.coe_toReal h1 h2).symm⟩

end Cert.Finite

end
-- ==== Proof.lean ====
/-
  Flash attention with mean pooling against plain softmax attention: the two programs compute the same vector.

  The input is a matrix `x` of 8192 rows and 512 columns, all entries finite. Both programs compute the self-attention
  of `x` with itself (scores `x·xᵀ`, a row-wise softmax, the weights applied to `x`), average the 8192 attended rows and
  divide the average by its Euclidean norm floored at `1e-12`.

  The reference does it with one softmax over all 8192 keys. The kernel does it tile by tile — eight tiles of 1024
  query rows — with a running maximum over eight chunks of 1024 keys: per query row it carries the maximum so far, the
  sum of the shifted exponentials so far and their weighted sum so far, and rescales both sums whenever the maximum
  moves; it then adds up the tile's normalised rows, and the host adds up the tiles. Over the extended reals, on finite
  inputs, the running softmax is the softmax: a softmax weight does not depend on the shift inside the exponentials,
  and rescaling by `exp (m_old − m_new)` turns sums shifted by `m_old` into sums shifted by `m_new`; a change of float
  format is the identity; sums may be regrouped; eight equal summands over eight give the summand. Both programs end
  with the same normalisation of the same pooled vector.

  The modules: `Spec` states both pooled vectors as plain functions of the matrix; `Algebra` proves them equal on
  finite matrices; `Finite` reads finiteness off the precondition; `RefValue` reads the reference's result index by
  index; `KernelPieces`, `KernelPayload`, `KernelChunks`, `KernelBlocks`, `KernelTail`, `KernelValue` read the
  kernel's: what one grid point leaves in its block, each stored value at an index, which rows are loaded, the blocks
  as one array, the host operations after the region, and the run with its value. The three frames are the generated
  runs; the idealisation rewrote nothing, so there is nothing to preserve.
-/
import proofs.«149267_j80229989089751_2_alg».proof.Defs
import proofs.«149267_j80229989089751_2_alg».proof.Proof.Gen.Kernel
import proofs.«149267_j80229989089751_2_alg».proof.Proof.Gen.Kernel.Skeleton
import proofs.«149267_j80229989089751_2_alg».proof.Proof.Gen.Kernel.Loops
import proofs.«149267_j80229989089751_2_alg».proof.Proof.Gen.Kernel.Launch
import proofs.«149267_j80229989089751_2_alg».proof.Proof.Gen.Kernel.Points
import proofs.«149267_j80229989089751_2_alg».proof.Proof.Gen.Kernel.Frame
import proofs.«149267_j80229989089751_2_alg».proof.Proof.Gen.KernelIdeal
import proofs.«149267_j80229989089751_2_alg».proof.Proof.Gen.KernelIdeal.Skeleton
import proofs.«149267_j80229989089751_2_alg».proof.Proof.Gen.KernelIdeal.Loops
import proofs.«149267_j80229989089751_2_alg».proof.Proof.Gen.KernelIdeal.Launch
import proofs.«149267_j80229989089751_2_alg».proof.Proof.Gen.KernelIdeal.Points
import proofs.«149267_j80229989089751_2_alg».proof.Proof.Gen.KernelIdeal.Frame
import proofs.«149267_j80229989089751_2_alg».proof.Proof.Gen.ReferenceIdeal
import proofs.«149267_j80229989089751_2_alg».proof.Proof.Gen.ReferenceIdeal.Run
import proofs.«149267_j80229989089751_2_alg».proof.Proof.Gen.ReferenceIdeal.Read
import proofs.«149267_j80229989089751_2_alg».proof.Proof.Gen.Pre_finite_inputs
import proofs.«149267_j80229989089751_2_alg».proof.Proof.RefValue
import proofs.«149267_j80229989089751_2_alg».proof.Proof.KernelValue
import proofs.«149267_j80229989089751_2_alg».proof.Proof.Algebra
import proofs.«149267_j80229989089751_2_alg».proof.Proof.Finite
import Idealize.ShloMosaic.Adequacy
import Idealize.ShloMosaic.Init

noncomputable section

namespace Cert.Proof

open Idealize.ShloMosaic Idealize.SL.Sem

/-- The kernel as printed runs and leaves its argument alone. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- On finite inputs both programs end at the normalised pooled vector: the kernel's run ends at the normalisation of
    the running-softmax pooled vector, the reference's at that of the plain-softmax one, and the two pooled vectors are
    equal on a matrix of reals. -/
theorem algebraic : Cert.algebraic_KernelIdeal_ReferenceIdeal := by
  intro m ρ m' ρ' hpre hagree
  refine ⟨fun c => Cert.Normalize.normalize (Cert.Normalize.vecOf (Cert.Spec.kerPooled
      (Cert.Normalize.toMat (m ((c.tc : Thread Cert.KernelIdeal.nD Cert.KernelIdeal.τ).loc Cert.KernelIdeal.main_arg0))))),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.RefValue.value_eq, hagree c,
    ← Cert.Algebra.kerPooled_eq_refPooled _ (Cert.Finite.finite_of_pre _ (hpre c))]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
